-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192x3 : Shape := ⟨3, ![1024, 8192, 3]⟩
abbrev S40x512 : Shape := ⟨2, ![40, 512]⟩
abbrev S40 : Shape := ⟨1, ![40]⟩
abbrev S_ : Shape := ⟨0, ![]⟩

class Facts : Prop where
  bcast_S_S1024x8192x3 : S_.BroadcastsInDim S1024x8192x3 (![] : Fin 0 → Fin S1024x8192x3.rank)
  reducesTo_S1024x8192x3_S_d0_1_2 : S1024x8192x3.ReducesTo [0, 1, 2] S_
  h_S_ : 0 < S_.numel
  bcast_S_S40x512 : S_.BroadcastsInDim S40x512 (![] : Fin 0 → Fin S40x512.rank)
  reducesTo_S40x512_S_d0_1 : S40x512.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S1024x8192x3 .f32) (main_arg1 : FVec F S40x512 .f32) (main_arg2 : FVec F S40 .f32) : IVec S_ 1 :=
  let main_v0 : FVec F S1024x8192x3 .f32 := Host.absf main_arg0
  let main_cst : FVec F S_ .f32 := constant S_ .f32 0x7F800000#32
  let main_v1 : FVec F S1024x8192x3 .f32 := broadcastInDim S1024x8192x3 ![] bcast_S_S1024x8192x3 main_cst
  let main_v2 : IVec S1024x8192x3 1 := cmpf .olt main_v0 main_v1
  let main_c : IVec S_ 1 := constantI S_ 1 1#1
  let main_v3 : IVec S_ 1 := (fun x v => Host.reduce IntOp.andi x v reducesTo_S1024x8192x3_S_d0_1_2 h_S_) main_v2 main_c
  let main_v4 : FVec F S40x512 .f32 := Host.absf main_arg1
  let main_cst_0 : FVec F S_ .f32 := constant S_ .f32 0x7F800000#32
  let main_v5 : FVec F S40x512 .f32 := broadcastInDim S40x512 ![] bcast_S_S40x512 main_cst_0
  let main_v6 : IVec S40x512 1 := cmpf .olt main_v4 main_v5
  let main_c_1 : IVec S_ 1 := constantI S_ 1 1#1
  let main_v7 : IVec S_ 1 := (fun x v => Host.reduce IntOp.andi x v reducesTo_S40x512_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S1024x8192x3 : Shape := ⟨3, ![1024, 8192, 3]⟩
abbrev S40x512 : Shape := ⟨2, ![40, 512]⟩
abbrev S40 : Shape := ⟨1, ![40]⟩
abbrev S1024x40 : Shape := ⟨2, ![1024, 40]⟩
abbrev S256x1024x3 : Shape := ⟨3, ![256, 1024, 3]⟩
abbrev S256x40 : Shape := ⟨2, ![256, 40]⟩
abbrev S256x512 : Shape := ⟨2, ![256, 512]⟩
abbrev S256x1024 : Shape := ⟨2, ![256, 1024]⟩
abbrev S256x1024x1 : Shape := ⟨3, ![256, 1024, 1]⟩
abbrev S256x1024x8 : Shape := ⟨3, ![256, 1024, 8]⟩
abbrev S256x8x8 : Shape := ⟨3, ![256, 8, 8]⟩
abbrev S256x64 : Shape := ⟨2, ![256, 64]⟩
abbrev S256x128 : Shape := ⟨2, ![256, 128]⟩
abbrev S512x40 : Shape := ⟨2, ![512, 40]⟩
abbrev S1x40 : Shape := ⟨2, ![1, 40]⟩

abbrev nBuf : Space → Nat
  | .hbm => 4
  | .vmem => 7
  | .smem => 0
  | _ => 0

abbrev bufTy : (tb : Table) → Fin (tcTables nBuf tb) → BufTy
  | .hbm, ⟨0, _⟩ => ⟨S1024x8192x3, .f32⟩
  | .hbm, ⟨1, _⟩ => ⟨S40x512, .f32⟩
  | .hbm, ⟨2, _⟩ => ⟨S40, .f32⟩
  | .hbm, ⟨3, _⟩ => ⟨S1024x40, .f32⟩
  | .local _ .vmem, ⟨0, _⟩ => ⟨S256x1024x3, .f32⟩
  | .local _ .vmem, ⟨1, _⟩ => ⟨S256x1024x3, .f32⟩
  | .local _ .vmem, ⟨2, _⟩ => ⟨S40x512, .f32⟩
  | .local _ .vmem, ⟨3, _⟩ => ⟨S40, .f32⟩
  | .local _ .vmem, ⟨4, _⟩ => ⟨S256x40, .f32⟩
  | .local _ .vmem, ⟨5, _⟩ => ⟨S256x40, .f32⟩
  | .local _ .vmem, ⟨6, _⟩ => ⟨S256x512, .f32⟩
  | _, _ => ⟨S1024x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_10 : BitVec 32 := 0#32
  let c4_i32 : BitVec 32 := 4#32
  let v43 : BitVec 32 := Scalar.addi c0_i32_10 c4_i32
  let c1_i32 : BitVec 32 := 1#32
  ⟨c0_i32_10, v43, c1_i32⟩
def k0_mult1 (k0_t1 : Fin k0_t1_loop.trips) : BitVec 32 :=
  let c0_i32_10 : BitVec 32 := 0#32
  let c1_i32 : BitVec 32 := 1#32
  let arg7 : BitVec 32 := Scf.iv c0_i32_10 c1_i32 k0_t1
  let c128_i32 : BitVec 32 := 128#32
  let v69 : BitVec 32 := Scalar.muli arg7 c128_i32
  v69
def k0_off1 (k0_t1 : Fin k0_t1_loop.trips) : Fin 2 → Nat :=
  let c0_18 : Index := 0#32
  let c0_i32_10 : BitVec 32 := 0#32
  let c1_i32 : BitVec 32 := 1#32
  let arg7 : BitVec 32 := Scf.iv c0_i32_10 c1_i32 k0_t1
  let c128_i32 : BitVec 32 := 128#32
  let v69 : BitVec 32 := Scalar.muli arg7 c128_i32
  let v70 : BitVec 32 := v69
  let v71 : Index := Scalar.indexCast v70
  ![0, v71.toNat]
def k0_cond2 (i : grid0.Coords) : BitVec 1 :=
  let arg1 : BitVec 32 := BitVec.ofNat 32 (i 1).val
  let c7_i32_12 : BitVec 32 := 7#32
  let v44 : BitVec 1 := Scalar.cmpi .eq arg1 c7_i32_12
  let v45 : BitVec 32 := Scalar.extui v44
  let c0_i32_13 : BitVec 32 := 0#32
  let v46 : BitVec 1 := Scalar.cmpi .ne v45 c0_i32_13
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024x3_S256x1024x3_0_0_0 : ∀ a, (![0, 0, 0] : Fin 3 → Nat) a + S256x1024x3.size a ≤ S256x1024x3.size a
  h_S256x1024x3 : 0 < S256x1024x3.numel
  reduces_S256x1024x3_S256x1024 : S256x1024x3.Reduces [2] S256x1024
  natLt_1_32 : 1 < 32
  bitsLt_bf16_f32 : FTy.bits .bf16 < FTy.bits .f32
  shapeCasts_S256x1024_S256x1024x1 : S256x1024.ShapeCasts S256x1024x1
  iota_S256x1024x8_d2_w32 : S256x1024x8.Iotas .tc 32 [2]
  slices_S256x1024x3_o0_0_0_S256x1024x1 : S256x1024x3.Slices ![0, 0, 0] S256x1024x1
  slices_S256x1024x3_o0_0_1_S256x1024x1 : S256x1024x3.Slices ![0, 0, 1] S256x1024x1
  slices_S256x1024x3_o0_0_2_S256x1024x1 : S256x1024x3.Slices ![0, 0, 2] S256x1024x1
  broadcasts_S256x1024x1_S256x1024x8 : S256x1024x1.Broadcasts S256x1024x8
  shapeCasts_S256x8x8_S256x64 : S256x8x8.ShapeCasts S256x64
  concatenates_S256x64_S256x64_S256x128_d1 : Shape.Concatenates [S256x64, S256x64] S256x128 1
  h_S256x128 : 0 < S256x128.numel
  shapeCasts_S256x128_S256x128 : S256x128.ShapeCasts S256x128
  inb_S40x512_S40x512_0_0 : ∀ a, (![0, 0] : Fin 2 → Nat) a + S40x512.size a ≤ S40x512.size a
  h_S40x512 : 0 < S40x512.numel
  transposes_S40x512_p1_0_S512x40 : S40x512.Transposes [1, 0] S512x40
  inb_S40_S40_0 : ∀ a, (![0] : Fin 1 → Nat) a + S40.size a ≤ S40.size a
  h_S40 : 0 < S40.numel
  shapeCasts_S40_S1x40 : S40.ShapeCasts S1x40
  broadcasts_S1x40_S256x40 : S1x40.Broadcasts S256x40
  inb_S256x40_S256x40_0_0 : ∀ a, (![0, 0] : Fin 2 → Nat) a + S256x40.size a ≤ S256x40.size a
  h_S256x40 : 0 < S256x40.numel
  dot_S256x1024x8_S256x1024x8_S256x8x8_1_1_2_2_0_0_wf : DotDims.WF S256x1024x8 S256x1024x8 S256x8x8 [1] [1] [2] [2] [0] [0]
  dot_S256x512_S512x40_S256x40_1_0_0_1_n_n_wf : DotDims.WF S256x512 S512x40 S256x40 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S256x128.size a ≤ S256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024x3.size a ≤ S1024x8192x3.size a
  hwx0_0 : ∀ i : grid0.Coords, EltTy.bits .f32 = 32 ∨ (Rect.block (s := S1024x8192x3) S256x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x512.size a ≤ S40x512.size a
  hwx0_1 : ∀ i : grid0.Coords, EltTy.bits .f32 = 32 ∨ (Rect.block (s := S40x512) S40x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x40.size a ≤ S1024x40.size a
  hwx0_3 : ∀ i : grid0.Coords, EltTy.bits .f32 = 32 ∨ (Rect.block (s := S1024x40) S256x40.size (cc0_transform_3 i) (hinb0_3 i)).WholeWords (EltTy.packing .f32)

variable [Facts₀]

def dot_S256x1024x8_S256x1024x8_S256x8x8_1_1_2_2_0_0 : DotDims S256x1024x8 S256x1024x8 S256x8x8 where
  lhsContracting := [1]
  rhsContracting := [1]
  lhsNonContracting := [2]
  rhsNonContracting := [2]
  lhsBatch := [0]
  rhsBatch := [0]
  wf := dot_S256x1024x8_S256x1024x8_S256x8x8_1_1_2_2_0_0_wf
def dot_S256x512_S512x40_S256x40_1_0_0_1_n_n : DotDims S256x512 S512x40 S256x40 where
  lhsContracting := [1]
  rhsContracting := [0]
  lhsNonContracting := [0]
  rhsNonContracting := [1]
  lhsBatch := []
  rhsBatch := []
  wf := dot_S256x512_S512x40_S256x40_1_0_0_1_n_n_wf

abbrev win0_0 : Pipeline.Window sig grid0 :=
  Pipeline.Window.ofSpec (Memref.whole main_arg0) S256x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x8192x3 : Shape := ⟨3, ![1024, 8192, 3]⟩
abbrev S40x512 : Shape := ⟨2, ![40, 512]⟩
abbrev S40 : Shape := ⟨1, ![40]⟩
abbrev S_ : Shape := ⟨0, ![]⟩
abbrev S1024x8192 : Shape := ⟨2, ![1024, 8192]⟩
abbrev S1024x8192x1 : Shape := ⟨3, ![1024, 8192, 1]⟩
abbrev S1024 : Shape := ⟨1, ![1024]⟩
abbrev S1024x1 : Shape := ⟨2, ![1024, 1]⟩
abbrev S8388608 : Shape := ⟨1, ![8388608]⟩
abbrev S524288 : Shape := ⟨1, ![524288]⟩
abbrev S8388608x1 : Shape := ⟨2, ![8388608, 1]⟩
abbrev S1024x512 : Shape := ⟨2, ![1024, 512]⟩
abbrev S512x40 : Shape := ⟨2, ![512, 40]⟩
abbrev S1024x40 : Shape := ⟨2, ![1024, 40]⟩
abbrev S1x40 : Shape := ⟨2, ![1, 40]⟩

abbrev nBuf : Space → Nat
  | .hbm => 65
  | .vmem => 0
  | .smem => 0
  | _ => 0

abbrev bufTy : (tb : Table) → Fin (tcTables nBuf tb) → BufTy
  | .hbm, ⟨0, _⟩ => ⟨S1024x8192x3, .f32⟩
  | .hbm, ⟨1, _⟩ => ⟨S40x512, .f32⟩
  | .hbm, ⟨2, _⟩ => ⟨S40, .f32⟩
  | .hbm, ⟨3, _⟩ => ⟨S_, .f32⟩
  | .hbm, ⟨4, _⟩ => ⟨S1024x8192x3, .f32⟩
  | .hbm, ⟨5, _⟩ => ⟨S1024x8192x3, .f32⟩
  | .hbm, ⟨6, _⟩ => ⟨S_, .f32⟩
  | .hbm, ⟨7, _⟩ => ⟨S1024x8192x3, .f32⟩
  | .hbm, ⟨8, _⟩ => ⟨S1024x8192x3, .f32⟩
  | .hbm, ⟨9, _⟩ => ⟨S1024x8192x3, .f32⟩
  | .hbm, ⟨10, _⟩ => ⟨S1024x8192x3, .i32⟩
  | .hbm, ⟨11, _⟩ => ⟨S_, .i32⟩
  | .hbm, ⟨12, _⟩ => ⟨S1024x8192x3, .i32⟩
  | .hbm, ⟨13, _⟩ => ⟨S1024x8192x3, .i32⟩
  | .hbm, ⟨14, _⟩ => ⟨S_, .f32⟩
  | .hbm, ⟨15, _⟩ => ⟨S1024x8192x3, .f32⟩
  | .hbm, ⟨16, _⟩ => ⟨S1024x8192x3, .i1⟩
  | .hbm, ⟨17, _⟩ => ⟨S_, .f32⟩
  | .hbm, ⟨18, _⟩ => ⟨S1024x8192x3, .f32⟩
  | .hbm, ⟨19, _⟩ => ⟨S1024x8192x3, .i1⟩
  | .hbm, ⟨20, _⟩ => ⟨S1024x8192x3, .i1⟩
  | .hbm, ⟨21, _⟩ => ⟨S_, .i1⟩
  | .hbm, ⟨22, _⟩ => ⟨S1024x8192, .i1⟩
  | .hbm, ⟨23, _⟩ => ⟨S1024x8192x1, .i32⟩
  | .hbm, ⟨24, _⟩ => ⟨S1024x8192, .i32⟩
  | .hbm, ⟨25, _⟩ => ⟨S_, .i32⟩
  | .hbm, ⟨26, _⟩ => ⟨S1024x8192, .i32⟩
  | .hbm, ⟨27, _⟩ => ⟨S1024x8192, .i32⟩
  | .hbm, ⟨28, _⟩ => ⟨S1024x8192x1, .i32⟩
  | .hbm, ⟨29, _⟩ => ⟨S1024x8192, .i32⟩
  | .hbm, ⟨30, _⟩ => ⟨S1024x8192, .i32⟩
  | .hbm, ⟨31, _⟩ => ⟨S_, .i32⟩
  | .hbm, ⟨32, _⟩ => ⟨S1024x8192, .i32⟩
  | .hbm, ⟨33, _⟩ => ⟨S1024x8192, .i32⟩
  | .hbm, ⟨34, _⟩ => ⟨S1024x8192x1, .i32⟩
  | .hbm, ⟨35, _⟩ => ⟨S1024x8192, .i32⟩
  | .hbm, ⟨36, _⟩ => ⟨S1024x8192, .i32⟩
  | .hbm, ⟨37, _⟩ => ⟨S1024, .i32⟩
  | .hbm, ⟨38, _⟩ => ⟨S1024x1, .i32⟩
  | .hbm, ⟨39, _⟩ => ⟨S_, .i32⟩
  | .hbm, ⟨40, _⟩ => ⟨S1024x1, .i32⟩
  | .hbm, ⟨41, _⟩ => ⟨S1024x1, .i32⟩
  | .hbm, ⟨42, _⟩ => ⟨S1024x8192, .i32⟩
  | .hbm, ⟨43, _⟩ => ⟨S1024x8192, .i32⟩
  | .hbm, ⟨44, _⟩ => ⟨S_, .i32⟩
  | .hbm, ⟨45, _⟩ => ⟨S_, .i32⟩
  | .hbm, ⟨46, _⟩ => ⟨S1024x8192, .i32⟩
  | .hbm, ⟨47, _⟩ => ⟨S1024x8192, .i32⟩
  | .hbm, ⟨48, _⟩ => ⟨S_, .f32⟩
  | .hbm, ⟨49, _⟩ => ⟨S1024x8192, .f32⟩
  | .hbm, ⟨50, _⟩ => ⟨S8388608, .f32⟩
  | .hbm, ⟨51, _⟩ => ⟨S8388608, .i32⟩
  | .hbm, ⟨52, _⟩ => ⟨S_, .f32⟩
  | .hbm, ⟨53, _⟩ => ⟨S524288, .f32⟩
  | .hbm, ⟨54, _⟩ => ⟨S8388608x1, .i32⟩
  | .hbm, ⟨55, _⟩ => ⟨S524288, .f32⟩
  | .hbm, ⟨56, _⟩ => ⟨S1024x512, .f32⟩
  | .hbm, ⟨57, _⟩ => ⟨S_, .f32⟩
  | .hbm, ⟨58, _⟩ => ⟨S1024x512, .f32⟩
  | .hbm, ⟨59, _⟩ => ⟨S1024x512, .f32⟩
  | .hbm, ⟨60, _⟩ => ⟨S512x40, .f32⟩
  | .hbm, ⟨61, _⟩ => ⟨S1024x40, .f32⟩
  | .hbm, ⟨62, _⟩ => ⟨S1x40, .f32⟩
  | .hbm, ⟨63, _⟩ => ⟨S1024x40, .f32⟩
  | .hbm, ⟨64, _⟩ => ⟨S1024x40, .f32⟩
  | _, _ => ⟨S1024x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S_S1024x8192x3 : S_.BroadcastsInDim S1024x8192x3 (![] : Fin 0 → Fin S1024x8192x3.rank)
  reducesTo_S1024x8192x3_S1024x8192_d2 : S1024x8192x3.ReducesTo [2] S1024x8192
  h_S_ : 0 < S_.numel
  slices_S1024x8192x3_S1024x8192x1_0_0_0 : S1024x8192x3.Slices ![0, 0, 0] S1024x8192x1
  shapeCasts_S1024x8192x1_S1024x8192 : S1024x8192x1.ShapeCasts S1024x8192
  bcast_S_S1024x8192 : S_.BroadcastsInDim S1024x8192 (![] : Fin 0 → Fin S1024x8192.rank)
  slices_S1024x8192x3_S1024x8192x1_0_0_1 : S1024x8192x3.Slices ![0, 0, 1] S1024x8192x1
  slices_S1024x8192x3_S1024x8192x1_0_0_2 : S1024x8192x3.Slices ![0, 0, 2] S1024x8192x1
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x8192_0_1 : S1024x1.BroadcastsInDim S1024x8192 (![0, 1] : Fin 2 → Fin S1024x8192.rank)
  shapeCasts_S1024x8192_S8388608 : S1024x8192.ShapeCasts S8388608
  bcast_S_S524288 : S_.BroadcastsInDim S524288 (![] : Fin 0 → Fin S524288.rank)
  bcast_S8388608_S8388608x1_0 : S8388608.BroadcastsInDim S8388608x1 (![0] : Fin 1 → Fin S8388608x1.rank)
  shapeCasts_S524288_S1024x512 : S524288.ShapeCasts S1024x512
  bcast_S_S1024x512 : S_.BroadcastsInDim S1024x512 (![] : Fin 0 → Fin S1024x512.rank)
  transposes_S40x512_S512x40_1_0 : S40x512.Transposes [1, 0] S512x40
  bcast_S40_S1x40_1 : S40.BroadcastsInDim S1x40 (![1] : Fin 1 → Fin S1x40.rank)
  bcast_S1x40_S1024x40_0_1 : S1x40.BroadcastsInDim S1024x40 (![0, 1] : Fin 2 → Fin S1024x40.rank)
  scatter_S524288_S8388608x1_S8388608_n_0_0_1_wf : ScatterDims.WF S524288 S8388608x1 S8388608 [] [0] [0] 1
  dot_S1024x512_S512x40_S1024x40_1_0_0_1_n_n_wf : DotDims.WF S1024x512 S512x40 S1024x40 [1] [0] [0] [1] [] []

variable [Facts₀]

def scatter_S524288_S8388608x1_S8388608_n_0_0_1 : ScatterDims S524288 S8388608x1 S8388608 where
  updateWindowDims := []
  insertedWindowDims := [0]
  scatterDimsToOperandDims := [0]
  indexVectorDim := 1
  wf := scatter_S524288_S8388608x1_S8388608_n_0_0_1_wf
def dot_S1024x512_S512x40_S1024x40_1_0_0_1_n_n : DotDims S1024x512 S512x40 S1024x40 where
  lhsContracting := [1]
  rhsContracting := [0]
  lhsNonContracting := [0]
  rhsNonContracting := [1]
  lhsBatch := []
  rhsBatch := []
  wf := dot_S1024x512_S512x40_S1024x40_1_0_0_1_n_n_wf

class Facts : Prop extends Facts₀ where

variable [Facts]
-- ==== Proof.Step.lean ====
/-
  One grid step's effect on the 256 x 512 accumulator, as a pure function.

  The body's counted loop makes four trips; trip k loads the band of columns 128 k .. 128 k + 127 of the accumulator,
  adds to it the two 8 x 8 voxel tables of first-axis bins 2 k and 2 k + 1 laid side by side, and stores the band
  back. The bands are disjoint and a trip touches only its own, so the accumulator after the loop is, column by
  column, what the trip owning the column stores there: the loop's payload at that trip, over the band the step found.
-/
import proofs.«143712_j28561532518446_2_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The loop makes four trips. -/
theorem trips_eq : k0_t1_loop.trips = 4 := by decide

/-- A trip's number is below four. -/
theorem trip_lt (k : Fin k0_t1_loop.trips) : k.val < 4 := Nat.lt_of_lt_of_eq k.isLt trips_eq

/-- The trip that owns column c: c / 128. -/
def tripOf (c : Fin 512) : Fin k0_t1_loop.trips :=
  ⟨c.val / 128, Nat.lt_of_lt_of_eq (by have := c.isLt; omega : c.val / 128 < 4) trips_eq.symm⟩

/-- The band of 128 columns of the accumulator that trip k loads and stores. -/
def band (acc : Vec F S256x512 .f32) (k : Fin k0_t1_loop.trips) : Vec F S256x128 .f32 :=
  fun z => acc (ix2 (⟨(z 0).val, idx2_lt0 z⟩ : Fin 256)
    (⟨128 * k.val + (z 1).val, by have := idx2_lt1 z; have := trip_lt k; omega⟩ : Fin 512))

/-- The accumulator after one grid step over the block x0 of points, from the accumulator acc the step found. -/
def stepAcc (x0 : Vec F S256x1024x3 .f32) (acc : Vec F S256x512 .f32) : Vec F S256x512 .f32 :=
  fun y => k0_pay1 (k0_pay5 x0) (k0_pay6 x0) (k0_pay7 x0) (tripOf ⟨(y 1).val, idx2_lt1 y⟩)
    (band acc (tripOf ⟨(y 1).val, idx2_lt1 y⟩))
    (ix2 (⟨(y 0).val, idx2_lt0 y⟩ : Fin 256) (⟨(y 1).val % 128, Nat.mod_lt _ (by norm_num)⟩ : Fin 128))

end Cert.KernelIdeal.Hand

end
-- ==== Proof.Bins.lean ====
/-
  The arithmetic of the 8 x 8 x 8 voxel grid: a point whose three bin numbers are (v, j, k) is counted in
  column v * 64 + j * 8 + k of a 512-wide row, and that column determines the three numbers.
-/
import Mathlib.Tactic

namespace Cert.Hist

/-- The column in which the voxel (v, j, k) is counted. -/
def binCol (v j k : Fin 8) : Fin 512 := ⟨v.val * 64 + j.val * 8 + k.val, by omega⟩

/-- The three bin numbers of a column: c = (c / 64) * 64 + (c / 8 % 8) * 8 + c % 8. -/
theorem binCol_div (c : Fin 512) :
    binCol ⟨c.val / 64, by omega⟩ ⟨c.val / 8 % 8, by omega⟩ ⟨c.val % 8, by omega⟩ = c := by
  apply Fin.ext
  simp only [binCol]
  omega

/-- Distinct voxels are counted in distinct columns. -/
theorem binCol_inj {v j k v' j' k' : Fin 8} (h : binCol v j k = binCol v' j' k') :
    v = v' ∧ j = j' ∧ k = k' := by
  have h' := congrArg Fin.val h
  simp only [binCol] at h'
  refine ⟨Fin.ext ?_, Fin.ext ?_, Fin.ext ?_⟩ <;> omega

end Cert.Hist
-- ==== Proof.Hist.lean ====
/-
  The voxel histogram followed by a linear classifier, as one function of the three argument arrays.

  A point cloud x holds 1024 clouds of 8192 points with three coordinates each. A point is COUNTED when each of its
  coordinates lies in [-2, 2]; the bin number of a coordinate t is floor ((t + 2) / (1/2)), the top end 2 falling in
  the last bin 7. A counted point with bin numbers (v, j, k) adds one to column v * 64 + j * 8 + k of its cloud's row
  of 512 counts. The result is, per cloud b and class q, the sum over the 512 columns of (count / 8192) * W q c, plus
  the bias of q.

  Both programs compute the bin number and the range test of a coordinate by the same scalar operations; they are
  named here once (binW, inW), as the machine words the programs hold, so that each side reads its own
  arithmetic back as these two functions and nothing about a real number is needed until the two sides meet.
-/
import Idealize.ShloMosaic.PureOps.Ideal
import Idealize.ShloMosaic.PureOps.Ideal.Laws
import Idealize.ShloMosaic.Lib.ValueIdx
import proofs.«143712_j28561532518446_2_alg».proof.Proof.Bins

noncomputable section

namespace Cert.Hist

open Idealize.ShloMosaic Idealize.ShloMosaic.ValueIdx

/-! ## The float literals of the two programs, as the reals their patterns denote -/

theorem ofBits_neg_two : Ideal.ofBits .f32 0xC0000000#32 = ((-2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_inv_8192 : Ideal.ofBits .f32 0x39000000#32 = ((1 / 8192 : ℝ) : EReal) := by
  simp [Ideal.ofBits, Ideal.ieee, -EReal.coe_mul]; norm_num

/-- Dividing by 8192 is multiplying by 1/8192, on every extended real. -/
theorem div_8192 (x : EReal) :
    Ideal.div x (Ideal.ofBits .f32 0x46000000#32) = x * Ideal.ofBits .f32 0x39000000#32 := by
  rw [ofBits_8192, ofBits_inv_8192, Ideal.div_coe (by norm_num : (8192 : ℝ) ≠ 0)]

/-! ## One coordinate -/

/-- The bin number of a coordinate, as the 32-bit word both programs compute: floor ((t - (-2)) / (1/2)) converted to
    an integer, and at most 7. -/
def binW (t : EReal) : BitVec 32 :=
  IntOp.minsi (Ideal.fptosi 32 (Ideal.liftRound Int.floor
    (Ideal.div (t - Ideal.ofBits .f32 0xC0000000#32) (Ideal.ofBits .f32 0x3F000000#32)))) 7#32

/-- Whether a coordinate lies in [-2, 2], as the one-bit word both programs compute. -/
def inW (t : EReal) : BitVec 1 :=
  IntOp.andi (Ideal.cmp .oge t (Ideal.ofBits .f32 0xC0000000#32)) (Ideal.cmp .ole t (Ideal.ofBits .f32 0x40000000#32))

/-! ## One point -/

/-- A point is counted when all three of its coordinates lie in [-2, 2]. -/
def Valid (p : Fin 3 → EReal) : Prop := ∀ a : Fin 3, inW (p a) = 1#1

/-- A point is counted in the voxel (v, j, k). -/
def Hit (p : Fin 3 → EReal) (v j k : Fin 8) : Prop :=
  Valid p ∧ binW (p 0) = BitVec.ofNat 32 v.val ∧ binW (p 1) = BitVec.ofNat 32 j.val ∧ binW (p 2) = BitVec.ofNat 32 k.val

open Classical in
/-- One if the point is counted in the voxel (v, j, k), zero if not. -/
def hit (p : Fin 3 → EReal) (v j k : Fin 8) : EReal := if Hit p v j k then 1 else 0

/-! ## The arrays -/

/-- The three coordinates of point n of cloud b, for an array of any number of clouds and points. -/
def pt {B N : Nat} (x : (⟨3, ![B, N, 3]⟩ : Shape).Idx → EReal) (b : Fin B) (n : Fin N) : Fin 3 → EReal :=
  fun a => x (ix3 b n a)

/-- The three bin numbers of a column of the 512-wide row of counts. -/
def colV (c : Fin 512) : Fin 8 := ⟨c.val / 64, by omega⟩
def colJ (c : Fin 512) : Fin 8 := ⟨c.val / 8 % 8, by omega⟩
def colK (c : Fin 512) : Fin 8 := ⟨c.val % 8, by omega⟩

/-- How many of the N points of cloud b are counted in the voxel of column c. -/
def count {B N : Nat} (x : (⟨3, ![B, N, 3]⟩ : Shape).Idx → EReal) (b : Fin B) (c : Fin 512) : EReal :=
  ∑ n : Fin N, hit (pt x b n) (colV c) (colJ c) (colK c)

/-- The result at cloud b and class q: the normalised counts against row q of the weights, plus the bias of q. -/
def resultAt (x : (⟨3, ![1024, 8192, 3]⟩ : Shape).Idx → EReal) (W : (⟨2, ![40, 512]⟩ : Shape).Idx → EReal)
    (bias : (⟨1, ![40]⟩ : Shape).Idx → EReal) (b : Fin 1024) (q : Fin 40) : EReal :=
  (∑ c : Fin 512, (count x b c * Ideal.ofBits .f32 0x39000000#32) * W (ix2 q c)) + bias (ix1 q)

/-- The result array. -/
def G (x : (⟨3, ![1024, 8192, 3]⟩ : Shape).Idx → EReal) (W : (⟨2, ![40, 512]⟩ : Shape).Idx → EReal)
    (bias : (⟨1, ![40]⟩ : Shape).Idx → EReal) : (⟨2, ![1024, 40]⟩ : Shape).Idx → EReal :=
  fun i => resultAt x W bias ⟨(i 0).val, idx2_lt0 i⟩ ⟨(i 1).val, idx2_lt1 i⟩

theorem G_ix2 (x : (⟨3, ![1024, 8192, 3]⟩ : Shape).Idx → EReal) (W : (⟨2, ![40, 512]⟩ : Shape).Idx → EReal)
    (bias : (⟨1, ![40]⟩ : Shape).Idx → EReal) (b : Fin 1024) (q : Fin 40) :
    G x W bias (ix2 b q) = resultAt x W bias b q := rfl

end Cert.Hist

end
-- ==== Proof.Pieces.Trip.lean ====
/-
  The counted loop of one grid step, read as a pure function of the accumulator.

  Trip k of the loop loads the band of columns 128 k .. 128 k + 127 of the 256 x 512 accumulator, applies the loop's
  payload to it, and stores the result over the same band. The four bands are disjoint, so the band trip k loads is
  still what the step found there: the earlier trips wrote other columns. Hence the list of stores the loop leaves
  is, trip by trip, the payload of the trip over the band of the accumulator at loop entry, and reading that list
  back at column c gives the payload of trip c / 128 at column c % 128 of its band.
-/
import proofs.«143712_j28561532518446_2_alg».proof.Proof.Step
import proofs.«143712_j28561532518446_2_alg».proof.Proof.Gen.KernelIdeal.Loops
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-! ## The step as a function of the three values the loop reads -/

/-- The accumulator after the loop, from the values v28, v35, v42 the loop reads and the accumulator acc it finds:
    column c holds the payload of trip c / 128 over that trip's band of acc, at column c % 128 of the band. -/
def stepOf (v28 : IVec S256x1024x1 32) (v35 : FVec F S256x1024x8 .bf16) (v42 : FVec F S256x1024x8 .bf16) (acc : Vec F S256x512 .f32) : Vec F S256x512 .f32 :=
  fun y => k0_pay1 v28 v35 v42 (tripOf ⟨(y 1).val, idx2_lt1 y⟩) (band acc (tripOf ⟨(y 1).val, idx2_lt1 y⟩))
    (ix2 (⟨(y 0).val, idx2_lt0 y⟩ : Fin 256) (⟨(y 1).val % 128, Nat.mod_lt _ (by norm_num)⟩ : Fin 128))

/-- The step over a block of points is the step over the three values computed from the block. -/
theorem stepAcc_eq_stepOf (x0 : Vec F S256x1024x3 .f32) (acc : Vec F S256x512 .f32) :
    stepAcc x0 acc = stepOf (k0_pay5 x0) (k0_pay6 x0) (k0_pay7 x0) acc := rfl

/-- At row r and column 128 j + q, with q below 128, the step is trip j's payload at (r, q). -/
theorem stepOf_at (v28 : IVec S256x1024x1 32) (v35 : FVec F S256x1024x8 .bf16) (v42 : FVec F S256x1024x8 .bf16) (acc : Vec F S256x512 .f32) (y : S256x512.Idx) (j : Fin k0_t1_loop.trips) (z : S256x128.Idx)
    (h0 : (y 0).val = (z 0).val) (h1 : (y 1).val = 128 * j.val + (z 1).val) :
    stepOf v28 v35 v42 acc y = k0_pay1 v28 v35 v42 j (band acc j) z := by
  have hz1 : (z 1).val < 128 := idx2_lt1 z
  have e1 : tripOf ⟨(y 1).val, idx2_lt1 y⟩ = j := Fin.ext (by show (y 1).val / 128 = j.val; omega)
  have e2 : ix2 (⟨(y 0).val, idx2_lt0 y⟩ : Fin 256) (⟨(y 1).val % 128, Nat.mod_lt _ (by norm_num)⟩ : Fin 128) = z := by
    funext a
    match a with
    | ⟨0, _⟩ => exact Fin.ext h0
    | ⟨1, _⟩ => exact Fin.ext (by show (y 1).val % 128 = (z 1).val; omega)
  unfold stepOf
  rw [e1, e2]

/-! ## The offsets of a trip's band -/

theorem off_row (k : Fin k0_t1_loop.trips) : k0_off1 k 0 = 0 := by rw [k0_off1_eq]; rfl
theorem off_col (k : Fin k0_t1_loop.trips) : k0_off1 k 1 = 128 * k.val := by rw [k0_off1_eq]; rfl

/-! ## The stores of the loop -/

/-- What trip k stores when the band it loads is that of acc: its payload over the band, at the band's rectangle. -/
def bandPiece (v28 : IVec S256x1024x1 32) (v35 : FVec F S256x1024x8 .bf16) (v42 : FVec F S256x1024x8 .bf16) (acc : Vec F S256x512 .f32) (k : Fin k0_t1_loop.trips) : View.Piece (Elt F) S256x512 .f32 :=
  ⟨Rect.unit (k0_off1 k) S256x128.size (k0_off1_inb k), k0_pay1 v28 v35 v42 k (band acc k)⟩

/-- The stores of the trips before n, the last first. -/
def bandPieces (v28 : IVec S256x1024x1 32) (v35 : FVec F S256x1024x8 .bf16) (v42 : FVec F S256x1024x8 .bf16) (acc : Vec F S256x512 .f32) : ℕ → List (View.Piece (Elt F) S256x512 .f32)
  | 0 => []
  | n + 1 => if h : n < k0_t1_loop.trips then bandPiece v28 v35 v42 acc ⟨n, h⟩ :: bandPieces v28 v35 v42 acc n
      else bandPieces v28 v35 v42 acc n

theorem bandPieces_succ (v28 : IVec S256x1024x1 32) (v35 : FVec F S256x1024x8 .bf16) (v42 : FVec F S256x1024x8 .bf16) (acc : Vec F S256x512 .f32) (n : ℕ) (h : n < k0_t1_loop.trips) :
    bandPieces v28 v35 v42 acc (n + 1) = bandPiece v28 v35 v42 acc ⟨n, h⟩ :: bandPieces v28 v35 v42 acc n := by
  rw [bandPieces]; exact dif_pos h

/-- Every store among those of the trips before n is the store of one of these trips. -/
theorem mem_bandPieces (v28 : IVec S256x1024x1 32) (v35 : FVec F S256x1024x8 .bf16) (v42 : FVec F S256x1024x8 .bf16) (acc : Vec F S256x512 .f32) :
    ∀ (n : ℕ) (p : View.Piece (Elt F) S256x512 .f32), p ∈ bandPieces v28 v35 v42 acc n →
      ∃ j : Fin k0_t1_loop.trips, j.val < n ∧ p = bandPiece v28 v35 v42 acc j
  | 0, p, h => absurd h List.not_mem_nil
  | n + 1, p, h => by
    by_cases hn : n < k0_t1_loop.trips
    · rw [bandPieces_succ v28 v35 v42 acc n hn] at h
      rcases List.mem_cons.mp h with rfl | h'
      · exact ⟨⟨n, hn⟩, Nat.lt_succ_self n, rfl⟩
      · obtain ⟨j, hj, e⟩ := mem_bandPieces v28 v35 v42 acc n p h'
        exact ⟨j, Nat.lt_succ_of_lt hj, e⟩
    · rw [bandPieces, dif_neg hn] at h
      obtain ⟨j, hj, e⟩ := mem_bandPieces v28 v35 v42 acc n p h
      exact ⟨j, Nat.lt_succ_of_lt hj, e⟩

/-- The store of each trip before n is among them. -/
theorem bandPiece_mem (v28 : IVec S256x1024x1 32) (v35 : FVec F S256x1024x8 .bf16) (v42 : FVec F S256x1024x8 .bf16) (acc : Vec F S256x512 .f32) :
    ∀ (n : ℕ) (j : Fin k0_t1_loop.trips), j.val < n → bandPiece v28 v35 v42 acc j ∈ bandPieces v28 v35 v42 acc n
  | 0, j, h => absurd h (Nat.not_lt_zero _)
  | n + 1, j, h => by
    by_cases hjn : j.val = n
    · have hlt : n < k0_t1_loop.trips := hjn ▸ j.isLt
      obtain rfl : j = ⟨n, hlt⟩ := Fin.ext hjn
      rw [bandPieces_succ v28 v35 v42 acc n hlt]
      exact List.mem_cons_self
    · have hlt : j.val < n := by omega
      by_cases hn : n < k0_t1_loop.trips
      · rw [bandPieces_succ v28 v35 v42 acc n hn]
        exact List.mem_cons_of_mem _ (bandPiece_mem v28 v35 v42 acc n j hlt)
      · rw [bandPieces, dif_neg hn]
        exact bandPiece_mem v28 v35 v42 acc n j hlt

/-! ## One trip -/

/-- The one store of trip k, from the contents f it finds: at the band's rectangle, the payload of the band loaded
    from f through the same rectangle. -/
theorem tripL_eq (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (k : Fin k0_t1_loop.trips)
    (f : BufTy.Contents (Elt F) arg6.view.ty) :
    tripL_k0_t1 (F := F) 𝒱 c bd i arg2 harg2 arg3 harg3 arg4 harg4 arg5 harg5 arg6 harg6 v28 v35 v42 k f
      = [⟨Rect.unit (k0_off1 k) S256x128.size (k0_off1_inb k),
          k0_pay1 v28 v35 v42 k (arg6.view.readAt (Elt F)
            (Rect.unit (s := S256x512) (k0_off1 k) S256x128.size (k0_off1_inb k)).toLoadRect f)⟩] := by
  unfold tripL_k0_t1 trip_k0_t1
  rfl

/-- A load of trip k's band after stores into the bands of earlier trips only reads the band of the contents
    before those stores. -/
theorem readAt_band (arg6 : Memref sig .tc .vmem S256x512 .f32) (k : Fin k0_t1_loop.trips)
    (G : BufTy.Contents (Elt F) arg6.view.ty) (L : List (View.Piece (Elt F) S256x512 .f32))
    (hL : ∀ p ∈ L, ∃ j : Fin k0_t1_loop.trips, j.val < k.val ∧ p.1 = Rect.unit (s := S256x512) (k0_off1 j) S256x128.size (k0_off1_inb j)) :
    arg6.view.readAt (Elt F) (Rect.unit (s := S256x512) (k0_off1 k) S256x128.size (k0_off1_inb k)).toLoadRect
        (arg6.view.writes (Elt F) G L)
      = band (arg6.view.read (Elt F) G) k := by
  rw [View.readAt_writes_of_forall_not_mem]
  · funext z
    rw [View.readAt_apply]
    unfold band
    refine congrArg _ (funext fun a => ?_)
    match a with
    | ⟨0, _⟩ =>
      refine Fin.ext ?_
      show k0_off1 k 0 + 1 * (z 0).val = (z 0).val
      rw [off_row]; omega
    | ⟨1, _⟩ =>
      refine Fin.ext ?_
      show k0_off1 k 1 + 1 * (z 1).val = 128 * k.val + (z 1).val
      rw [off_col]; omega
  · intro z p hp hmem
    obtain ⟨j, hj, e⟩ := hL p hp
    rw [e, Rect.mem_set_unit] at hmem
    have h1 := hmem 1
    have hidx : (((Rect.unit (s := S256x512) (k0_off1 k) S256x128.size (k0_off1_inb k)).toLoadRect.idx z) 1).val
        = k0_off1 k 1 + 1 * (z 1).val := rfl
    rw [hidx, off_col, off_col] at h1
    have hs : S256x128.size 1 = 128 := rfl
    rw [hs] at h1
    omega

/-! ## The loop -/

/-- The stores the loop has made before trip n, from the contents G at its entry: each trip's payload over the band
    of what G reads, since a trip's band is untouched by the trips before it. -/
theorem pb_eq (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (G : BufTy.Contents (Elt F) arg6.view.ty) :
    ∀ n : ℕ, n ≤ k0_t1_loop.trips →
      pb_k0_t1 (F := F) 𝒱 c bd i arg2 harg2 arg3 harg3 arg4 harg4 arg5 harg5 arg6 harg6 v28 v35 v42 G n = bandPieces v28 v35 v42 (arg6.view.read (Elt F) G) n
  | 0, _ => rfl
  | n + 1, hn => by
    have h : n < k0_t1_loop.trips := hn
    refine (pb_k0_t1_succ (F := F) 𝒱 c bd i arg2 harg2 arg3 harg3 arg4 harg4 arg5 harg5 arg6 harg6 v28 v35 v42 G ⟨n, h⟩).trans ?_
    show tripL_k0_t1 (F := F) 𝒱 c bd i arg2 harg2 arg3 harg3 arg4 harg4 arg5 harg5 arg6 harg6 v28 v35 v42 ⟨n, h⟩
        (arg6.view.writes (Elt F) G (pb_k0_t1 (F := F) 𝒱 c bd i arg2 harg2 arg3 harg3 arg4 harg4 arg5 harg5 arg6 harg6 v28 v35 v42 G n))
      ++ pb_k0_t1 (F := F) 𝒱 c bd i arg2 harg2 arg3 harg3 arg4 harg4 arg5 harg5 arg6 harg6 v28 v35 v42 G n = _
    rw [pb_eq 𝒱 c bd i arg2 harg2 arg3 harg3 arg4 harg4 arg5 harg5 arg6 harg6 v28 v35 v42 G n (Nat.le_of_lt h), tripL_eq,
      readAt_band arg6 ⟨n, h⟩ G _ (fun p hp => by
        obtain ⟨j, hj, e⟩ := mem_bandPieces v28 v35 v42 _ n p hp
        exact ⟨j, hj, by rw [e]; rfl⟩),
      bandPieces_succ v28 v35 v42 _ n h]
    rfl

/-- The four bands cover the accumulator: column c lies in the band of trip c / 128. -/
theorem cover_bandPieces (v28 : IVec S256x1024x1 32) (v35 : FVec F S256x1024x8 .bf16) (v42 : FVec F S256x1024x8 .bf16) (acc : Vec F S256x512 .f32) (y : S256x512.Idx) :
    ∃ p ∈ bandPieces v28 v35 v42 acc k0_t1_loop.trips, y ∈ p.1.set := by
  refine ⟨bandPiece v28 v35 v42 acc (tripOf ⟨(y 1).val, idx2_lt1 y⟩),
    bandPiece_mem v28 v35 v42 acc _ _ (Fin.isLt _), ?_⟩
  show y ∈ (Rect.unit (s := S256x512) (k0_off1 (tripOf ⟨(y 1).val, idx2_lt1 y⟩)) S256x128.size (k0_off1_inb _)).set
  rw [Rect.mem_set_unit]
  intro a
  have h0 : (y 0).val < 256 := idx2_lt0 y
  have h1 : (y 1).val < 512 := idx2_lt1 y
  match a with
  | ⟨0, _⟩ =>
    show k0_off1 _ 0 ≤ (y 0).val ∧ (y 0).val < k0_off1 _ 0 + 256
    rw [off_row]; omega
  | ⟨1, _⟩ =>
    show k0_off1 _ 1 ≤ (y 1).val ∧ (y 1).val < k0_off1 _ 1 + 128
    rw [off_col]
    show 128 * ((y 1).val / 128) ≤ (y 1).val ∧ (y 1).val < 128 * ((y 1).val / 128) + 128
    omega

/-- Read back as one function, the loop's stores are the step. -/
theorem canon_bandPieces (v28 : IVec S256x1024x1 32) (v35 : FVec F S256x1024x8 .bf16) (v42 : FVec F S256x1024x8 .bf16) (acc : Vec F S256x512 .f32) :
    View.canon (bandPieces v28 v35 v42 acc k0_t1_loop.trips) = stepOf v28 v35 v42 acc := by
  funext y
  refine View.canon_apply_of_pieces (stepOf v28 v35 v42 acc) _ ?_ y (cover_bandPieces v28 v35 v42 acc y)
  intro p hp
  obtain ⟨j, -, rfl⟩ := mem_bandPieces v28 v35 v42 acc _ p hp
  change ∀ x : S256x128.Idx, k0_pay1 v28 v35 v42 j (band acc j) x
    = stepOf v28 v35 v42 acc ((Rect.unit (s := S256x512) (k0_off1 j) S256x128.size (k0_off1_inb j)).emb x)
  intro x
  refine (stepOf_at v28 v35 v42 acc _ j x ?_ ?_).symm
  · show k0_off1 j 0 + 1 * (x 0).val = (x 0).val
    rw [off_row]; omega
  · show k0_off1 j 1 + 1 * (x 1).val = 128 * j.val + (x 1).val
    rw [off_col]; omega

/-- The loop's stores cover the accumulator. -/
theorem cover_pb (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (G : BufTy.Contents (Elt F) arg6.view.ty)
    (y : S256x512.Idx) :
    ∃ p ∈ pb_k0_t1 (F := F) 𝒱 c bd i arg2 harg2 arg3 harg3 arg4 harg4 arg5 harg5 arg6 harg6 v28 v35 v42 G k0_t1_loop.trips, y ∈ p.1.set := by
  rw [pb_eq 𝒱 c bd i arg2 harg2 arg3 harg3 arg4 harg4 arg5 harg5 arg6 harg6 v28 v35 v42 G _ le_rfl]
  exact cover_bandPieces v28 v35 v42 _ y

/-- The loop's stores, read back as one function: the step over what the contents at loop entry read. -/
theorem canon_pb (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (G : BufTy.Contents (Elt F) arg6.view.ty) :
    View.canon (pb_k0_t1 (F := F) 𝒱 c bd i arg2 harg2 arg3 harg3 arg4 harg4 arg5 harg5 arg6 harg6 v28 v35 v42 G k0_t1_loop.trips)
      = stepOf v28 v35 v42 (arg6.view.read (Elt F) G) := by
  rw [pb_eq 𝒱 c bd i arg2 harg2 arg3 harg3 arg4 harg4 arg5 harg5 arg6 harg6 v28 v35 v42 G _ le_rfl]
  exact canon_bandPieces v28 v35 v42 _

/-- Stores made before a covering list of stores do not show. -/
theorem canon_append_of_cover {S : Shape} {e : EltTy} (L L' : List (View.Piece (Elt F) S e)) (y : S.Idx)
    (h : ∃ p ∈ L, y ∈ p.1.set) : View.canon (L ++ L') y = View.canon L y := by
  induction L with
  | nil => obtain ⟨p, hp, _⟩ := h; exact absurd hp List.not_mem_nil
  | cons p L ih =>
    by_cases hy : y ∈ p.1.set
    · obtain ⟨r, w⟩ := p
      obtain ⟨x, rfl⟩ := r.exists_idx_of_mem hy
      rw [List.cons_append, show r.idx x = r.emb x from rfl, View.canon_cons_emb, View.canon_cons_emb]
    · rw [List.cons_append, View.canon_cons_of_not_mem _ _ hy, View.canon_cons_of_not_mem _ _ hy]
      refine ih ?_
      obtain ⟨q, hq, hyq⟩ := h
      rcases List.mem_cons.mp hq with rfl | hq'
      · exact absurd hyq hy
      · exact ⟨q, hq', hyq⟩

/-- The same with earlier stores below the loop's. -/
theorem canon_pb_append (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (G : BufTy.Contents (Elt F) arg6.view.ty)
    (L' : List (View.Piece (Elt F) S256x512 .f32)) :
    View.canon (pb_k0_t1 (F := F) 𝒱 c bd i arg2 harg2 arg3 harg3 arg4 harg4 arg5 harg5 arg6 harg6 v28 v35 v42 G k0_t1_loop.trips ++ L')
      = stepOf v28 v35 v42 (arg6.view.read (Elt F) G) :=
  funext fun y => (canon_append_of_cover _ L' y (cover_pb 𝒱 c bd i arg2 harg2 arg3 harg3 arg4 harg4 arg5 harg5 arg6 harg6 v28 v35 v42 G y)).trans
    (congrFun (canon_pb 𝒱 c bd i arg2 harg2 arg3 harg3 arg4 harg4 arg5 harg5 arg6 harg6 v28 v35 v42 G) y)

/-- What the accumulator reads after the loop's stores, over whatever contents: the step. -/
theorem read_writes_pb (𝒱 : Variants) (c : Dev nD) (bd : Option 𝒱.V) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (v28 : IVec S256x1024x1 32) (v35 : FVec F S256x1024x8 .bf16) (v42 : FVec F S256x1024x8 .bf16) (G f : BufTy.Contents (Elt F) arg6.view.ty) :
    arg6.view.read (Elt F) (arg6.view.writes (Elt F) f (pb_k0_t1 (F := F) 𝒱 c bd i arg2 harg2 arg3 harg3 arg4 harg4 arg5 harg5 arg6 harg6 v28 v35 v42 G k0_t1_loop.trips))
      = stepOf v28 v35 v42 (arg6.view.read (Elt F) G) := by
  rw [View.read_writes_eq_canon _ _ _ (cover_pb 𝒱 c bd i arg2 harg2 arg3 harg3 arg4 harg4 arg5 harg5 arg6 harg6 v28 v35 v42 G)]
  exact canon_pb 𝒱 c bd i arg2 harg2 arg3 harg3 arg4 harg4 arg5 harg5 arg6 harg6 v28 v35 v42 G

/-! ## Zero offsets -/

/-- Offsets written as a list of zeros are the zero offsets. -/
theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.KernelIdeal.Hand

end
-- ==== Proof.Pieces.CaseA.lean ====
/-
  The first step of a row of the grid (second grid coordinate 0): what it leaves in the accumulator.

  Before the loop this step stores the zero block over the whole 256 x 512 accumulator; the loop then runs from
  those contents. Reading the stores back, the loop's four band stores cover every column, so the zero store below
  them does not show, and each band is the loop's payload over the band of the zero block.
-/
import proofs.«143712_j28561532518446_2_alg».proof.Proof.Pieces.Trip
import proofs.«143712_j28561532518446_2_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- The first step of a row of the grid stores the zero block over the whole accumulator before the loop, so it
    leaves the step over its block of points from the zero block. -/
theorem sout0_A_0_eq (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : cond0_0 i) (hc1 : ¬cond0_1 i) (x0 : Vec F S256x1024x3 .f32) (x1 : Vec F S40x512 .f32) (x2 : Vec F S40 .f32) :
    sout0_A_0 c i arg2 harg2 arg3 harg3 arg4 harg4 arg5 harg5 arg6 harg6 hc0 hc1 x0 x1 x2 = stepAcc x0 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, View.ld_unit_zero (S := S256x1024x3) zeros3]
  rw [stepAcc_eq_stepOf]
  refine (canon_pb_append Variants.none c none i arg2 harg2 arg3 harg3 arg4 harg4 arg5 harg5 arg6 harg6 (k0_pay5 x0) (k0_pay6 x0) (k0_pay7 x0) _ _).trans ?_
  rw [View.read_writes_junk_eq_canon, View.canon_unit_zero zeros2]

end Cert.KernelIdeal.Hand

end
-- ==== Proof.Pieces.CaseB.lean ====
/-
  A step that is neither first nor last in its row of the grid: what it leaves in the accumulator.

  Its only stores into the accumulator are the loop's four band stores, made from the contents xs0 the step before
  left; read back, they are the step function over the block of points and xs0.
-/
import proofs.«143712_j28561532518446_2_alg».proof.Proof.Pieces.Trip
import proofs.«143712_j28561532518446_2_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- A step that is neither the first nor the last of its row of the grid leaves, in the accumulator it found at
    xs0, the step over its block of points: the loop's four stores are its only stores there. -/
theorem sout0_B_0_eq (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : ¬cond0_1 i) (x0 : Vec F S256x1024x3 .f32) (x1 : Vec F S40x512 .f32) (x2 : Vec F S40 .f32) (xs0 : Vec F S256x512 .f32) :
    sout0_B_0 c i arg2 harg2 arg3 harg3 arg4 harg4 arg5 harg5 arg6 harg6 hc0 hc1 x0 x1 x2 xs0 = stepAcc x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, View.ld_unit_zero (S := S256x1024x3) zeros3]
  rw [stepAcc_eq_stepOf]
  refine (canon_pb Variants.none c none i arg2 harg2 arg3 harg3 arg4 harg4 arg5 harg5 arg6 harg6 (k0_pay5 x0) (k0_pay6 x0) (k0_pay7 x0) (harg6.unread xs0)).trans ?_
  rw [harg6.read_unread]

end Cert.KernelIdeal.Hand

end
-- ==== Proof.Pieces.CaseC.lean ====
/-
  The last step of a row of the grid (second grid coordinate 7): what it leaves in the accumulator.

  As for a middle step, its only stores into the accumulator are the loop's four band stores over the contents xs0
  the step before left (the output it computes afterwards only loads the accumulator).
-/
import proofs.«143712_j28561532518446_2_alg».proof.Proof.Pieces.Trip
import proofs.«143712_j28561532518446_2_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- The last step of a row of the grid leaves in the accumulator what any later step does: the step over its block. -/
theorem sout0_C_0_eq (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : cond0_1 i) (x0 : Vec F S256x1024x3 .f32) (x1 : Vec F S40x512 .f32) (x2 : Vec F S40 .f32) (xs0 : Vec F S256x512 .f32) :
    sout0_C_0 c i arg2 harg2 arg3 harg3 arg4 harg4 arg5 harg5 arg6 harg6 hc0 hc1 x0 x1 x2 xs0 = stepAcc x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  simp only [View.readAt_eq_ld, harg2.read_unread, View.ld_unit_zero (S := S256x1024x3) zeros3]
  rw [stepAcc_eq_stepOf]
  refine (canon_pb Variants.none c none i arg2 harg2 arg3 harg3 arg4 harg4 arg5 harg5 arg6 harg6 (k0_pay5 x0) (k0_pay6 x0) (k0_pay7 x0) (harg6.unread xs0)).trans ?_
  rw [harg6.read_unread]

end Cert.KernelIdeal.Hand

end
-- ==== Proof.Pieces.OutC.lean ====
/-
  The last step of a row of the grid (second grid coordinate 7): its output block.

  After the loop the step loads the whole accumulator, the whole weights block and the whole bias block, and stores
  the output payload of the three over the whole output block. The accumulator it loads is what the loop's stores
  left over xs0, the step function over the block of points and xs0.
-/
import proofs.«143712_j28561532518446_2_alg».proof.Proof.Pieces.Trip
import proofs.«143712_j28561532518446_2_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]

/-- The last step of a row of the grid loads the whole accumulator after the loop and stores the output payload of
    it, of the weights x1 and of the bias x2: the output block is that payload of the step's accumulator. -/
theorem out0_C_3_eq (c : Dev nD) (i : grid0.Coords) (arg2 : Memref sig .tc .vmem S256x1024x3 .f32) (harg2 : arg2.IsWhole) (arg3 : Memref sig .tc .vmem S40x512 .f32) (harg3 : arg3.IsWhole) (arg4 : Memref sig .tc .vmem S40 .f32) (harg4 : arg4.IsWhole) (arg5 : Memref sig .tc .vmem S256x40 .f32) (harg5 : arg5.IsWhole) (arg6 : Memref sig .tc .vmem S256x512 .f32) (harg6 : arg6.IsWhole) (hc0 : ¬cond0_0 i) (hc1 : cond0_1 i) (x0 : Vec F S256x1024x3 .f32) (x1 : Vec F S40x512 .f32) (x2 : Vec F S40 .f32) (xs0 : Vec F S256x512 .f32) :
    out0_C_3 c i arg2 harg2 arg3 harg3 arg4 harg4 arg5 harg5 arg6 harg6 hc0 hc1 x0 x1 x2 xs0 = k0_pay2 (stepAcc x0 xs0) x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zeros2]
  simp only [View.readAt_eq_ld, harg2.read_unread, harg3.read_unread, harg4.read_unread,
    View.ld_unit_zero (S := S256x1024x3) zeros3, View.ld_unit_zero (S := S40x512) zeros2]
  rw [read_writes_pb Variants.none c none i arg2 harg2 arg3 harg3 arg4 harg4 arg5 harg5 arg6 harg6 (k0_pay5 x0) (k0_pay6 x0) (k0_pay7 x0) (harg6.unread xs0) (harg6.unread xs0),
    harg6.read_unread, View.ld_unit_zero (S := S256x512) zeros2, View.ld_unit_zero (S := S40) zeros1, stepAcc_eq_stepOf]

end Cert.KernelIdeal.Hand

end
-- ==== Proof.Pieces.lean ====
/-
  What each control case of the kernel body leaves in the carried accumulator and in the output block, as pure
  functions: the first step of a row (the zero block, then the loop), a middle step (the loop), the last step (the
  loop, then the output payload of the accumulator). The loop's four band stores read back as one function,
  `stepAcc`; the lemmas are in the modules imported here.
-/
import proofs.«143712_j28561532518446_2_alg».proof.Proof.Pieces.CaseA
import proofs.«143712_j28561532518446_2_alg».proof.Proof.Pieces.CaseB
import proofs.«143712_j28561532518446_2_alg».proof.Proof.Pieces.CaseC
import proofs.«143712_j28561532518446_2_alg».proof.Proof.Pieces.OutC
-- ==== Proof.TileBins.lean ====
/-
  The bin numbers the kernel computes, read at a point.

  The kernel turns every coordinate of the block into its bin number by the scalar operations the specification names
  binW: subtract -2, divide by 1/2, take the floor, convert to an integer, cap at 7. Each of the three columns of bin
  numbers is then cut out as a [256, 1024, 1] array.
-/
import proofs.«143712_j28561532518446_2_alg».proof.Proof.Gen.KernelIdeal.Skeleton
import proofs.«143712_j28561532518446_2_alg».proof.Proof.Hist
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- The array of bin numbers at point n of cloud b, coordinate a: the specification's bin number of that coordinate. -/
theorem pay4_apply (x : Vec Ideal S256x1024x3 .f32) (b : Fin 256) (n : Fin 1024) (a : Fin 3) :
    k0_pay4 (F := Ideal) x (ix3 b n a) = Cert.Hist.binW (Cert.Hist.pt (B := 256) (N := 1024) x b n a) := rfl

/-- The first column of bin numbers, at point n of cloud b. -/
theorem pay5_apply (x : Vec Ideal S256x1024x3 .f32) (b : Fin 256) (n : Fin 1024) (z : Fin 1) :
    k0_pay5 (F := Ideal) x (ix3 b n z) = Cert.Hist.binW (Cert.Hist.pt (B := 256) (N := 1024) x b n 0) := by
  unfold k0_pay5
  refine (extractStridedSlice_apply _ _ _ (ix3 b n z) (ix3 b n (0 : Fin 3)) fun a => ?_).trans (pay4_apply x b n 0)
  match a with
  | ⟨0, _⟩ => exact (Nat.zero_add _).symm
  | ⟨1, _⟩ => exact (Nat.zero_add _).symm
  | ⟨2, _⟩ => show 0 = 0 + z.val; omega

/-- The second column of bin numbers, at point n of cloud b. -/
theorem slice1_apply (x : Vec Ideal S256x1024x3 .f32) (b : Fin 256) (n : Fin 1024) (z : Fin 1) :
    extractStridedSlice S256x1024x1 ![0, 0, 1] (k0_pay4 (F := Ideal) x) slices_S256x1024x3_o0_0_1_S256x1024x1 (ix3 b n z)
      = Cert.Hist.binW (Cert.Hist.pt (B := 256) (N := 1024) x b n 1) := by
  refine (extractStridedSlice_apply _ _ _ (ix3 b n z) (ix3 b n (1 : Fin 3)) fun a => ?_).trans (pay4_apply x b n 1)
  match a with
  | ⟨0, _⟩ => exact (Nat.zero_add _).symm
  | ⟨1, _⟩ => exact (Nat.zero_add _).symm
  | ⟨2, _⟩ => show 1 = 1 + z.val; omega

/-- The third column of bin numbers, at point n of cloud b. -/
theorem slice2_apply (x : Vec Ideal S256x1024x3 .f32) (b : Fin 256) (n : Fin 1024) (z : Fin 1) :
    extractStridedSlice S256x1024x1 ![0, 0, 2] (k0_pay4 (F := Ideal) x) slices_S256x1024x3_o0_0_2_S256x1024x1 (ix3 b n z)
      = Cert.Hist.binW (Cert.Hist.pt (B := 256) (N := 1024) x b n 2) := by
  refine (extractStridedSlice_apply _ _ _ (ix3 b n z) (ix3 b n (2 : Fin 3)) fun a => ?_).trans (pay4_apply x b n 2)
  match a with
  | ⟨0, _⟩ => exact (Nat.zero_add _).symm
  | ⟨1, _⟩ => exact (Nat.zero_add _).symm
  | ⟨2, _⟩ => show 2 = 2 + z.val; omega

end Cert.KernelIdeal.Hand

end
-- ==== Proof.LibMinReduce.lean ====
/-
  A minimum along one axis, read at an index, on the extended reals.

  A reduction by minimum over ONE axis of an array, read at an index `j` of the reduced shape, is the fold of `min`, from the
  value of the start word, over that axis's coordinates `k` of the array at `j` with `k` inserted on the reduced axis. It is
  the twin, for the minimum, of the reading of a single-axis maximum: the reduction is a fold over the set of indices that
  drop to `j`, and that set is the image of the axis's coordinates under the insertion.
-/
import Idealize.ShloMosaic.PureOps.Ideal.Laws
import Idealize.ShloMosaic.PureOps.Reduce

noncomputable section

namespace Cert.LibMinReduce

open Idealize.ShloMosaic

/-- A minimum along one axis, read at a reduced index: the fold of `min` from the start word's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinReduce

end
-- ==== Proof.TileMask.lean ====
/-
  The indicator factors of the kernel, read at a point.

  A comparison of two machine words, widened and converted to a number, is 1 when the words are equal and 0 when not.
  The validity factor of a point is built from the range tests of its three coordinates: each test selects 1 or 0, the
  minimum of the three selected values (started from +infinity) is positive exactly when all three tests pass, and that
  comparison, widened and converted, is 1 for a counted point and 0 for any other.
-/
import proofs.«143712_j28561532518446_2_alg».proof.Proof.Gen.KernelIdeal.Skeleton
import proofs.«143712_j28561532518446_2_alg».proof.Proof.Hist
import proofs.«143712_j28561532518446_2_alg».proof.Proof.TileBins
import proofs.«143712_j28561532518446_2_alg».proof.Proof.LibMinReduce
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

open Classical

/-! ## Words turned into numbers -/

/-- A one-bit word, widened to 32 bits and converted: 1 for the bit 1, 0 for the bit 0. -/
theorem bit_to_real (c : BitVec 1) :
    FloatOps.sitofp (F := Ideal) .f32 (c.setWidth 32) = if c = 1#1 then (1 : EReal) else 0 := by
  rcases BitVec.eq_zero_or_eq_one c with h | h
  · subst h
    rw [if_neg (by decide)]
    show (((((0#1 : BitVec 1).setWidth 32).toInt : ℤ) : ℝ) : EReal) = 0
    rw [show ((0#1 : BitVec 1).setWidth 32).toInt = 0 by decide]
    simp
  · subst h
    rw [if_pos rfl]
    show (((((1#1 : BitVec 1).setWidth 32).toInt : ℤ) : ℝ) : EReal) = 1
    rw [show ((1#1 : BitVec 1).setWidth 32).toInt = 1 by decide]
    simp

/-- The equality test of two words is the bit 1 exactly when they are equal. -/
theorem cmpi_eq_one_iff (w v : BitVec 32) : IntOp.cmpi .eq w v = 1#1 ↔ w = v := by
  show BitVec.ofBool (w == v) = 1#1 ↔ w = v
  by_cases h : w = v
  · subst h
    rw [show (w == w) = true by simp]
    exact ⟨fun _ => rfl, fun _ => rfl⟩
  · rw [show (w == v) = false by simpa using h]
    exact ⟨fun h' => absurd h' (by decide), fun h' => absurd h' h⟩

/-- The equality test of two words, widened and converted: 1 when they are equal, 0 when not. -/
theorem onehot_word (w v : BitVec 32) :
    FloatOps.sitofp (F := Ideal) .f32 ((IntOp.cmpi .eq w v).setWidth 32) = if w = v then (1 : EReal) else 0 := by
  rw [bit_to_real]
  exact if_congr (cmpi_eq_one_iff w v) rfl rfl

/-! ## The position along the bin axis -/

/-- The array that numbers the last axis holds, at (b, n, j), the word of j. -/
theorem iota_apply (b : Fin 256) (n : Fin 1024) (j : Fin 8) :
    iota .tc S256x1024x8 32 [2] iota_S256x1024x8_d2_w32 (ix3 b n j) = BitVec.ofNat 32 j.val := by
  show BitVec.ofNat 32 (0 * 8 + j.val) = _
  rw [Nat.zero_mul, Nat.zero_add]

/-- A [256, 1024, 1] array spread along a last axis of 8 reads, at (b, n, j), its entry (b, n, 0). -/
theorem bcast8_apply {α : Type} (v : S256x1024x1.Idx → α) (b : Fin 256) (n : Fin 1024) (j : Fin 8) :
    broadcastTo S256x1024x8 v broadcasts_S256x1024x1_S256x1024x8 (ix3 b n j) = v (ix3 b n (0 : Fin 1)) := by
  refine broadcastTo_apply v _ (ix3 b n j) (ix3 b n (0 : Fin 1)) fun a => ?_
  match a with
  | ⟨0, _⟩ => rfl
  | ⟨1, _⟩ => rfl
  | ⟨2, _⟩ => rfl

/-- A [256, 1024] array given a last axis of extent 1 reads, at (b, n, 0), its entry (b, n). -/
theorem unit_apply {α : Type} (v : S256x1024.Idx → α) (b : Fin 256) (n : Fin 1024) (z : Fin 1) :
    shapeCast S256x1024x1 v shapeCasts_S256x1024_S256x1024x1 (ix3 b n z) = v (ix2 b n) := by
  refine shapeCast_apply v _ (ix3 b n z) (ix2 b n) ?_
  rw [Shape.rowMajor_val_three, Shape.rowMajor_val_two]
  show b.val * 1024 + n.val = (b.val * 1024 + n.val) * 1 + z.val
  omega

/-! ## The indicator of the second bin number -/

/-- The second-axis indicator at (b, n, j): 1 when the point's second bin number is j, 0 when not. -/
theorem pay6_apply (x : Vec Ideal S256x1024x3 .f32) (b : Fin 256) (n : Fin 1024) (j : Fin 8) :
    k0_pay6 (F := Ideal) x (ix3 b n j)
      = if Cert.Hist.binW (Cert.Hist.pt (B := 256) (N := 1024) x b n 1) = BitVec.ofNat 32 j.val then (1 : EReal) else 0 := by
  unfold k0_pay6
  rw [truncf_apply, sitofp_apply, extui_apply]
  show FloatOps.sitofp (F := Ideal) .f32 ((IntOp.cmpi .eq (broadcastTo S256x1024x8 _ broadcasts_S256x1024x1_S256x1024x8 (ix3 b n j))
    (iota .tc S256x1024x8 32 [2] iota_S256x1024x8_d2_w32 (ix3 b n j))).setWidth 32) = _
  rw [bcast8_apply, iota_apply, slice1_apply, onehot_word]

/-! ## The first-axis indicator against a given word -/

/-- The first-axis indicator of a trip, at (b, n, j): 1 when the first column's word at the point is w, 0 when not. -/
theorem first_factor (v28 : IVec S256x1024x1 32) (w : BitVec 32) (b : Fin 256) (n : Fin 1024) (j : Fin 8) :
    broadcastTo S256x1024x8
        (truncf (F := Ideal) .bf16 (sitofp (F := Ideal) .f32 (extui 32 (cmpi .eq v28 (broadcast S256x1024x1 w)) natLt_1_32)) bitsLt_bf16_f32)
        broadcasts_S256x1024x1_S256x1024x8 (ix3 b n j)
      = if v28 (ix3 b n (0 : Fin 1)) = w then (1 : EReal) else 0 := by
  rw [bcast8_apply, truncf_apply, sitofp_apply, extui_apply]
  exact onehot_word _ _

/-! ## The validity factor -/

/-- The pattern 0x7F800000 denotes +infinity. -/
theorem ofBits_inf : Ideal.ofBits .f32 0x7F800000#32 = ⊤ := by
  simp [Ideal.ofBits, Ideal.ieee]

/-- A range test's selected value is positive exactly when the test passes. -/
theorem sel_pos_iff (c : BitVec 1) :
    (0 : EReal) < Scalar.select c (Ideal.ofBits .f32 0x3F800000#32) (Ideal.ofBits .f32 0x00000000#32) ↔ c = 1#1 := by
  rw [Cert.Hist.ofBits_one, Ideal.ofBits_zero_f32]
  by_cases h : c = 1#1
  · subst h; rw [select_one]; exact ⟨fun _ => rfl, fun _ => zero_lt_one⟩
  · rw [eq_zero_of_ne_one h, select_zero]; exact ⟨fun h' => absurd h' (lt_irrefl _), fun h' => absurd h' (by decide)⟩

/-- The minimum over the three coordinates of the range tests' selected values, per point. -/
def minSel (x : Vec Ideal S256x1024x3 .f32) : FVec Ideal S256x1024 .f32 :=
  multiReduction .minimumf [2] S256x1024
    (select (andi (cmpf .oge x (broadcast S256x1024x3 (Scalar.ofBits (F := Ideal) .f32 0xC0000000#32)))
        (cmpf .ole x (broadcast S256x1024x3 (Scalar.ofBits (F := Ideal) .f32 0x40000000#32))))
      (broadcast S256x1024x3 (Scalar.ofBits (F := Ideal) .f32 0x3F800000#32))
      (broadcast S256x1024x3 (Scalar.ofBits (F := Ideal) .f32 0x00000000#32)))
    0x7F800000#32 reduces_S256x1024x3_S256x1024 (.inl rfl) rfl

/-- The reduced index (b, n) with coordinate a put back on the last axis is (b, n, a). -/
theorem lift_ix (b : Fin 256) (n : Fin 1024) (a : Fin 3) :
    reduces_S256x1024x3_S256x1024.lift (ix2 b n) a = ix3 b n a := by
  funext c
  refine Fin.ext ?_
  match c with
  | ⟨0, _⟩ => rfl
  | ⟨1, _⟩ => rfl
  | ⟨2, _⟩ => rfl

/-- The minimum over the last axis from +infinity, read at (b, n): the least of +infinity and the three entries. -/
theorem minReduce_apply (src : FVec Ideal S256x1024x3 .f32) (hφ : FKind.Formats .f32)
    (hacc : (0x7F800000#32 : BitVec 32) = 0x7F800000#32) (b : Fin 256) (n : Fin 1024) :
    multiReduction .minimumf [2] S256x1024 src 0x7F800000#32 reduces_S256x1024x3_S256x1024 hφ hacc (ix2 b n)
      = (Finset.univ : Finset (Fin 3)).fold min (Ideal.ofBits .f32 0x7F800000#32) (fun a => src (ix3 b n a)) := by
  refine (Cert.LibMinReduce.multiReduction_minimumf_single src 0x7F800000#32 reduces_S256x1024x3_S256x1024 hφ hacc
    (ix2 b n)).trans ?_
  refine congrArg (fun f : Fin 3 → EReal => (Finset.univ : Finset (Fin 3)).fold min (Ideal.ofBits .f32 0x7F800000#32) f)
    (funext fun a => congrArg src (lift_ix b n a))

/-- That minimum is positive exactly at the counted points. -/
theorem minSel_pos_iff (x : Vec Ideal S256x1024x3 .f32) (b : Fin 256) (n : Fin 1024) :
    Ideal.ofBits .f32 0x00000000#32 < minSel x (ix2 b n) ↔ Cert.Hist.Valid (Cert.Hist.pt (B := 256) (N := 1024) x b n) := by
  unfold minSel
  rw [minReduce_apply, Ideal.ofBits_zero_f32, Finset.lt_fold_min, ofBits_inf]
  constructor
  · intro h a
    exact (sel_pos_iff _).mp (h.2 a (Finset.mem_univ a))
  · intro h
    exact ⟨EReal.zero_lt_top, fun a _ => (sel_pos_iff _).mpr (h a)⟩

/-- The comparison "minimum above zero" is the bit 1 exactly at the counted points. -/
theorem valid_bit_iff (x : Vec Ideal S256x1024x3 .f32) (b : Fin 256) (n : Fin 1024) :
    Ideal.cmp .ogt (minSel x (ix2 b n)) (Ideal.ofBits .f32 0x00000000#32) = 1#1
      ↔ Cert.Hist.Valid (Cert.Hist.pt (B := 256) (N := 1024) x b n) := by
  refine Iff.trans ?_ (minSel_pos_iff x b n)
  show BitVec.ofBool (decide (Ideal.ofBits .f32 0x00000000#32 < minSel x (ix2 b n))) = 1#1 ↔ _
  by_cases h : Ideal.ofBits .f32 0x00000000#32 < minSel x (ix2 b n)
  · rw [decide_eq_true h]; exact ⟨fun _ => h, fun _ => rfl⟩
  · rw [decide_eq_false h]; exact ⟨fun h' => absurd h' (by decide), fun h' => absurd h' h⟩

/-- An equality test of two arrays of words at an index tests the two words there. -/
theorem cmpi_apply {s : Shape} {w : Nat} (p : CmpIPredicate) (u v : IVec s w) (i : s.Idx) :
    cmpi p u v i = IntOp.cmpi p (u i) (v i) := rfl

/-- The third-axis indicator times the validity factor at (b, n, k): 1 when the point is counted and its third bin
    number is k, 0 when not. -/
theorem pay7_apply (x : Vec Ideal S256x1024x3 .f32) (b : Fin 256) (n : Fin 1024) (k : Fin 8) :
    k0_pay7 (F := Ideal) x (ix3 b n k)
      = (if Cert.Hist.binW (Cert.Hist.pt (B := 256) (N := 1024) x b n 2) = BitVec.ofNat 32 k.val then (1 : EReal) else 0)
        * (if Cert.Hist.Valid (Cert.Hist.pt (B := 256) (N := 1024) x b n) then (1 : EReal) else 0) := by
  unfold k0_pay7
  rw [mulf_apply]
  refine congrArg₂ (· * ·) ?_ ?_
  · rw [truncf_apply, sitofp_apply, extui_apply, cmpi_apply, bcast8_apply, iota_apply, slice2_apply, onehot_word]
  · rw [bcast8_apply, unit_apply, truncf_apply, sitofp_apply, extui_apply, bit_to_real, cmpf_apply, broadcast_apply]
    exact if_congr (valid_bit_iff x b n) rfl rfl

end Cert.KernelIdeal.Hand

end
-- ==== Proof.TileDot.lean ====
/-
  The batched product of two [256, 1024, 8] arrays over their middle axis, read at an entry.

  For each cloud b the product contracts the 1024 points: entry (b, j, k) of the result is the sum over the points n
  of the left array at (b, n, j) times the right array at (b, n, k). Started from the zero array, nothing else is
  added.
-/
import proofs.«143712_j28561532518446_2_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The dimension numbers of the product: cloud axis shared, point axis contracted, bin axes kept. -/
abbrev dotD : DotDims S256x1024x8 S256x1024x8 S256x8x8 := dot_S256x1024x8_S256x1024x8_S256x8x8_1_1_2_2_0_0

/-! The operand indices at a result index and a contraction index, coordinate by coordinate. -/

theorem dot_lhs0 (i : S256x8x8.Idx) (q : dotD.contr.Idx) : (dotD.lhsIdx i q 0).val = (i 0).val := by
  unfold DotDims.lhsIdx
  rw [dif_pos (show (0 : Fin S256x1024x8.rank) ∈ dotD.lhsBatch by decide)]
  rfl

theorem dot_lhs1 (i : S256x8x8.Idx) (q : dotD.contr.Idx) : (dotD.lhsIdx i q 1).val = (q ⟨0, by decide⟩).val :=
  dotD.lhsIdx_val_of_single rfl i q

theorem dot_lhs2 (i : S256x8x8.Idx) (q : dotD.contr.Idx) : (dotD.lhsIdx i q 2).val = (i 1).val := by
  unfold DotDims.lhsIdx
  rw [dif_neg (show ¬(2 : Fin S256x1024x8.rank) ∈ dotD.lhsBatch by decide),
    dif_pos (show (2 : Fin S256x1024x8.rank) ∈ dotD.lhsNonContracting by decide)]
  rfl

theorem dot_rhs0 (i : S256x8x8.Idx) (q : dotD.contr.Idx) : (dotD.rhsIdx i q 0).val = (i 0).val := by
  unfold DotDims.rhsIdx
  rw [dif_pos (show (0 : Fin S256x1024x8.rank) ∈ dotD.rhsBatch by decide)]
  rfl

theorem dot_rhs1 (i : S256x8x8.Idx) (q : dotD.contr.Idx) : (dotD.rhsIdx i q 1).val = (q ⟨0, by decide⟩).val :=
  dotD.rhsIdx_val_of_single rfl i q

theorem dot_rhs2 (i : S256x8x8.Idx) (q : dotD.contr.Idx) : (dotD.rhsIdx i q 2).val = (i 2).val := by
  unfold DotDims.rhsIdx
  rw [dif_neg (show ¬(2 : Fin S256x1024x8.rank) ∈ dotD.rhsBatch by decide),
    dif_pos (show (2 : Fin S256x1024x8.rank) ∈ dotD.rhsNonContracting by decide)]
  rfl

/-- The product into the zero array at (b, j, k): the sum over the points of the two factors. -/
theorem dot_apply (l r : FVec Ideal S256x1024x8 .bf16) (b : Fin 256) (j k : Fin 8) :
    matmul dotD none l r (constant (F := Ideal) S256x8x8 .f32 0x00000000#32) (ix3 b j k)
      = ∑ n : Fin 1024, l (ix3 b n j) * r (ix3 b n k) := by
  simp only [matmul]
  rw [Ideal.matmul_constant_zero_apply, ← Equiv.sum_comp (contrEquiv1 dotD 1024 rfl rfl).symm]
  refine Finset.sum_congr rfl fun n _ => ?_
  have hn := contrEquiv1_symm_val dotD 1024 rfl rfl n
  have el : dotD.lhsIdx (ix3 b j k) ((contrEquiv1 dotD 1024 rfl rfl).symm n) = ix3 b n j :=
    funext fun a => Fin.ext (by
      match a with
      | ⟨0, _⟩ => exact dot_lhs0 _ _
      | ⟨1, _⟩ => exact (dot_lhs1 _ _).trans hn
      | ⟨2, _⟩ => exact dot_lhs2 _ _)
  have er : dotD.rhsIdx (ix3 b j k) ((contrEquiv1 dotD 1024 rfl rfl).symm n) = ix3 b n k :=
    funext fun a => Fin.ext (by
      match a with
      | ⟨0, _⟩ => exact dot_rhs0 _ _
      | ⟨1, _⟩ => exact (dot_rhs1 _ _).trans hn
      | ⟨2, _⟩ => exact dot_rhs2 _ _)
  rw [el, er]

end Cert.KernelIdeal.Hand

end
-- ==== Proof.LibConcatCols.lean ====
/-
  Two tables with the same rows laid side by side, read at an entry.

  An [R, a] table and an [R, b] table concatenated along the second axis give an [R, c] table (c = a + b) that holds,
  at row `p` and column `k`, the first table's entry (p, k) when k < a, and the second table's entry (p, k - a) from
  column a on. Both are the general two-piece reads with the piece's index named coordinate by coordinate.
-/
import Idealize.ShloMosaic.Lib.Pipeline.Value
import Idealize.ShloMosaic.Lib.ValueIdx

noncomputable section

namespace Cert.LibConcatCols

open Idealize.ShloMosaic Idealize.ShloMosaic.ValueIdx

variable {α : Type}

/-- Left of the seam the joined table reads the first table at the same row and column. -/
theorem concat_cols_apply_left {R a b c : ℕ} (X : (⟨2, ![R, a]⟩ : Shape).Idx → α) (Y : (⟨2, ![R, b]⟩ : Shape).Idx → α)
    (h : Shape.Concatenates [⟨2, ![R, a]⟩, ⟨2, ![R, b]⟩] ⟨2, ![R, c]⟩ 1) (p : Fin R) (k : Fin c) (hk : k.val < a) :
    concatenate ⟨2, ![R, c]⟩ 1 [⟨⟨2, ![R, a]⟩, X⟩, ⟨⟨2, ![R, b]⟩, Y⟩] h (ix2 p k) = X (ix2 p ⟨k.val, hk⟩) :=
  concatenate_pair_apply_left 1 X Y h (ix2 p k) rfl (ix2 p ⟨k.val, hk⟩)
    (fun ax => match ax with | ⟨0, _⟩ => rfl | ⟨1, _⟩ => rfl)

/-- From the seam on the joined table reads the second table at the same row, the column the first width less. -/
theorem concat_cols_apply_right {R a b c : ℕ} (X : (⟨2, ![R, a]⟩ : Shape).Idx → α) (Y : (⟨2, ![R, b]⟩ : Shape).Idx → α)
    (h : Shape.Concatenates [⟨2, ![R, a]⟩, ⟨2, ![R, b]⟩] ⟨2, ![R, c]⟩ 1) (p : Fin R) (k : Fin c) (hk : a ≤ k.val)
    (hkb : k.val - a < b) :
    concatenate ⟨2, ![R, c]⟩ 1 [⟨⟨2, ![R, a]⟩, X⟩, ⟨⟨2, ![R, b]⟩, Y⟩] h (ix2 p k) = Y (ix2 p ⟨k.val - a, hkb⟩) :=
  concatenate_pair_apply_right 1 X Y h (ix2 p k) rfl rfl (ix2 p ⟨k.val - a, hkb⟩)
    (fun ax hax => match ax, hax with
      | ⟨0, _⟩, _ => rfl
      | ⟨1, _⟩, hax => absurd rfl hax)
    (by show (k.val - a) + a = k.val; omega)

end Cert.LibConcatCols

end
-- ==== Proof.TileSlab.lean ====
/-
  Two 8 x 8 tables per cloud laid side by side as one band of 128 columns, read at an entry.

  A [256, 8, 8] array recast as [256, 64] holds entry (b, j, k) at column 8 j + k. Two such arrays joined along the
  columns give [256, 128]: columns 0 .. 63 are the first, columns 64 .. 127 the second. So column c of the band reads
  the first or the second table, by c / 64, at row c / 8 % 8 and column c % 8 of the table.
-/
import proofs.«143712_j28561532518446_2_alg».proof.Proof.Gen.KernelIdeal.Skeleton
import proofs.«143712_j28561532518446_2_alg».proof.Proof.LibConcatCols
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- An [256, 8, 8] array recast as [256, 64]: column c holds entry (c / 8, c % 8). -/
theorem cast64_apply {α : Type} (t : S256x8x8.Idx → α) (b : Fin 256) (c : Fin 64) :
    shapeCast S256x64 t shapeCasts_S256x8x8_S256x64 (ix2 b c)
      = t (ix3 b (⟨c.val / 8, by omega⟩ : Fin 8) (⟨c.val % 8, by omega⟩ : Fin 8)) := by
  refine shapeCast_apply t _ (ix2 b c) _ ?_
  rw [Shape.rowMajor_val_three, Shape.rowMajor_val_two]
  show (b.val * 8 + c.val / 8) * 8 + c.val % 8 = b.val * 64 + c.val
  omega

/-- The band of two recast tables at column c: the first table left of column 64, the second from there on, at
    row c / 8 % 8 and column c % 8. -/
theorem slab_apply {α : Type} (t0 t1 : S256x8x8.Idx → α) (b : Fin 256) (c : Fin 128) :
    concatenate S256x128 1 [⟨S256x64, shapeCast S256x64 t0 shapeCasts_S256x8x8_S256x64⟩,
        ⟨S256x64, shapeCast S256x64 t1 shapeCasts_S256x8x8_S256x64⟩] concatenates_S256x64_S256x64_S256x128_d1 (ix2 b c)
      = if c.val < 64 then t0 (ix3 b (⟨c.val / 8 % 8, by omega⟩ : Fin 8) (⟨c.val % 8, by omega⟩ : Fin 8))
        else t1 (ix3 b (⟨c.val / 8 % 8, by omega⟩ : Fin 8) (⟨c.val % 8, by omega⟩ : Fin 8)) := by
  by_cases hc : c.val < 64
  · rw [if_pos hc]
    refine (Cert.LibConcatCols.concat_cols_apply_left _ _ _ b c hc).trans ?_
    rw [cast64_apply]
    have e : (⟨c.val / 8, by omega⟩ : Fin 8) = ⟨c.val / 8 % 8, by omega⟩ := Fin.ext (by show c.val / 8 = c.val / 8 % 8; omega)
    rw [e]
  · rw [if_neg hc]
    refine (Cert.LibConcatCols.concat_cols_apply_right _ _ _ b c (by omega) (by have := c.isLt; omega)).trans ?_
    rw [cast64_apply]
    have e : (⟨(c.val - 64) / 8, by have := c.isLt; omega⟩ : Fin 8) = ⟨c.val / 8 % 8, by omega⟩ :=
      Fin.ext (by show (c.val - 64) / 8 = c.val / 8 % 8; have := c.isLt; omega)
    have e' : (⟨(c.val - 64) % 8, by omega⟩ : Fin 8) = ⟨c.val % 8, by omega⟩ :=
      Fin.ext (by show (c.val - 64) % 8 = c.val % 8; omega)
    rw [e, e']

end Cert.KernelIdeal.Hand

end
-- ==== Proof.TileHit.lean ====
/-
  A product of four indicators is the indicator of the voxel.
-/
import proofs.«143712_j28561532518446_2_alg».proof.Proof.Gen.KernelIdeal.Skeleton
import proofs.«143712_j28561532518446_2_alg».proof.Proof.Hist
import proofs.«143712_j28561532518446_2_alg».proof.Proof.Step
import Idealize.ShloMosaic.Lib.ValueIdx

noncomputable section

namespace Cert.KernelIdeal.Hand

open Cert.KernelIdeal Cert.KernelIdeal.Gen Idealize.ShloMosaic Idealize.ShloMosaic.ValueIdx

open Classical

/-- The product of the indicators of the three bin numbers and of validity is the indicator that the point is counted
    in the voxel. The first bin number is compared with a word w that is the word of v. -/
theorem hit_eq_prod (p : Fin 3 → EReal) (v j k : Fin 8) (w : BitVec 32) (hw : w = BitVec.ofNat 32 v.val) :
    ((if Cert.Hist.binW (p 1) = BitVec.ofNat 32 j.val then (1 : EReal) else 0) * (if Cert.Hist.binW (p 0) = w then (1 : EReal) else 0))
      * ((if Cert.Hist.binW (p 2) = BitVec.ofNat 32 k.val then (1 : EReal) else 0) * (if Cert.Hist.Valid p then (1 : EReal) else 0))
      = Cert.Hist.hit p v j k := by
  subst hw
  unfold Cert.Hist.hit Cert.Hist.Hit
  by_cases h1 : Cert.Hist.binW (p 1) = BitVec.ofNat 32 j.val <;>
  by_cases h0 : Cert.Hist.binW (p 0) = BitVec.ofNat 32 v.val <;>
  by_cases h2 : Cert.Hist.binW (p 2) = BitVec.ofNat 32 k.val <;>
  by_cases hv : Cert.Hist.Valid p <;> simp [h1, h0, h2, hv]

/-- The word of twice the trip number. -/
theorem even_word (m : Nat) (hm : m < 4) : Scalar.muli 2#32 (Scf.iv 0#32 1#32 m) = BitVec.ofNat 32 (2 * m) := by
  interval_cases m <;> rfl

/-- The word of twice the trip number plus one. -/
theorem odd_word (m : Nat) (hm : m < 4) :
    Scalar.addi (Scalar.muli 2#32 (Scf.iv 0#32 1#32 m)) 1#32 = BitVec.ofNat 32 (2 * m + 1) := by
  interval_cases m <;> rfl

end Cert.KernelIdeal.Hand

end
-- ==== Proof.TileValue.lean ====
/-
  One trip's store, read at an entry.

  Trip k of the loop stores, at row b and column c of its band, the value it loaded there plus one entry of one of two
  8 x 8 tables: the table of first-axis bin 2 k for the columns left of 64, of first-axis bin 2 k + 1 from there on,
  at second-axis bin c / 8 % 8 and third-axis bin c % 8. An entry of a table is the sum over the block's 1024 points
  of a product of four indicators (the three bin numbers and validity), which is the indicator that the point is
  counted in that voxel.
-/
import proofs.«143712_j28561532518446_2_alg».proof.Proof.Gen.KernelIdeal.Skeleton
import proofs.«143712_j28561532518446_2_alg».proof.Proof.Step
import proofs.«143712_j28561532518446_2_alg».proof.Proof.Hist
import proofs.«143712_j28561532518446_2_alg».proof.Proof.TileBins
import proofs.«143712_j28561532518446_2_alg».proof.Proof.TileMask
import proofs.«143712_j28561532518446_2_alg».proof.Proof.TileDot
import proofs.«143712_j28561532518446_2_alg».proof.Proof.TileSlab
import proofs.«143712_j28561532518446_2_alg».proof.Proof.TileHit
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- The trip's store at (b, c): the loaded value plus the number of the block's points counted in the voxel
    (2 k + c / 64, c / 8 % 8, c % 8). -/
theorem pay1_apply (x : Vec Ideal S256x1024x3 .f32) (k : Fin k0_t1_loop.trips) (ld : Vec Ideal S256x128 .f32)
    (b : Fin 256) (col : Fin 128) :
    k0_pay1 (F := Ideal) (k0_pay5 x) (k0_pay6 x) (k0_pay7 x) k ld (ix2 b col)
      = ld (ix2 b col) + ∑ n : Fin 1024, Cert.Hist.hit (Cert.Hist.pt (B := 256) (N := 1024) x b n)
          ⟨2 * k.val + col.val / 64, by have := trip_lt k; have := col.isLt; omega⟩
          ⟨col.val / 8 % 8, by omega⟩ ⟨col.val % 8, by omega⟩ := by
  have hk := trip_lt k
  have hcol := col.isLt
  unfold k0_pay1
  rw [shapeCast_self, addf_apply, slab_apply]
  refine congrArg (ld (ix2 b col) + ·) ?_
  by_cases hc : col.val < 64
  · rw [if_pos hc, dot_apply]
    refine Finset.sum_congr rfl fun n _ => ?_
    rw [mulf_apply, pay6_apply, first_factor, pay5_apply, pay7_apply]
    exact hit_eq_prod _ _ _ _ _ ((even_word k.val hk).trans (congrArg (BitVec.ofNat 32)
      (by show 2 * k.val = 2 * k.val + col.val / 64; omega)))
  · rw [if_neg hc, dot_apply]
    refine Finset.sum_congr rfl fun n _ => ?_
    rw [mulf_apply, pay6_apply, first_factor, pay5_apply, pay7_apply]
    exact hit_eq_prod _ _ _ _ _ ((odd_word k.val hk).trans (congrArg (BitVec.ofNat 32)
      (by show 2 * k.val + 1 = 2 * k.val + col.val / 64; omega)))

end Cert.KernelIdeal.Hand

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.ClassifyValue.lean ====
/-
  The kernel's classifier step, read at one entry, on the extended reals.

  The step scales the 256 x 512 accumulator by the literal 1/8192, multiplies it with the transposed 40 x 512
  weights (a 256 x 512 by 512 x 40 product into zeros) and adds the bias, a length-40 vector made a row and repeated
  down the 256 rows. Narrowing to the 16-bit format is the identity on the extended reals. So entry (b, q) is the sum
  over the 512 columns c of (accumulator at (b, c) times 1/8192) times the weight at (q, c), plus the bias at q.
  The block the step stores back into the accumulator afterwards is zero everywhere.
-/
import proofs.«143712_j28561532518446_2_alg».proof.Proof.Gen.KernelIdeal.Skeleton
import proofs.«143712_j28561532518446_2_alg».proof.Proof.LibPlainDot
import proofs.«143712_j28561532518446_2_alg».proof.Proof.LibBiasRow
import Idealize.ShloMosaic.PureOps.Ideal.Laws
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The product's left index keeps the result's row. -/
theorem classify_lhs0 (j : S256x40.Idx) (k : dot_S256x512_S512x40_S256x40_1_0_0_1_n_n.contr.Idx) :
    (dot_S256x512_S512x40_S256x40_1_0_0_1_n_n.lhsIdx j k 0).val = (j 0).val := by
  unfold DotDims.lhsIdx
  rw [dif_neg (show ¬(0 : Fin S256x512.rank) ∈ dot_S256x512_S512x40_S256x40_1_0_0_1_n_n.lhsBatch by decide),
    dif_pos (show (0 : Fin S256x512.rank) ∈ dot_S256x512_S512x40_S256x40_1_0_0_1_n_n.lhsNonContracting by decide)]
  rfl

/-- The product's right index keeps the result's column. -/
theorem classify_rhs1 (j : S256x40.Idx) (k : dot_S256x512_S512x40_S256x40_1_0_0_1_n_n.contr.Idx) :
    (dot_S256x512_S512x40_S256x40_1_0_0_1_n_n.rhsIdx j k 1).val = (j 1).val := by
  unfold DotDims.rhsIdx
  rw [dif_neg (show ¬(1 : Fin S512x40.rank) ∈ dot_S256x512_S512x40_S256x40_1_0_0_1_n_n.rhsBatch by decide),
    dif_pos (show (1 : Fin S512x40.rank) ∈ dot_S256x512_S512x40_S256x40_1_0_0_1_n_n.rhsNonContracting by decide)]
  rfl

/-- THE CLASSIFIER STEP AT (b, q). -/
theorem pay2_apply (acc : Vec Ideal S256x512 .f32) (W : Vec Ideal S40x512 .f32) (bias : Vec Ideal S40 .f32)
    (b : Fin 256) (q : Fin 40) :
    k0_pay2 (F := Ideal) acc W bias (ix2 b q)
      = (∑ c : Fin 512, (acc (ix2 b c) * Ideal.ofBits .f32 0x39000000#32) * W (ix2 q c)) + bias (ix1 q) := by
  unfold k0_pay2
  dsimp only
  rw [addf_apply, Cert.LibBiasRow.reshaped_row_apply bias shapeCasts_S40_S1x40 broadcasts_S1x40_S256x40 b q]
  congr 1
  refine (Cert.LibPlainDot.matmul_zero_apply dot_S256x512_S512x40_S256x40_1_0_0_1_n_n rfl rfl classify_lhs0 classify_rhs1
    rfl rfl none _ _ b q).trans ?_
  refine Finset.sum_congr rfl fun c _ => ?_
  rw [transpose_apply [1, 0] _ transposes_S40x512_p1_0_S512x40 (ix2 c q) (ix2 q c) (fun a => match a with
    | ⟨0, _⟩ => rfl
    | ⟨1, _⟩ => rfl)]
  rfl

/-- The block stored back into the accumulator after the classifier step is zero. -/
theorem pay3_apply (y : S256x512.Idx) : k0_pay3 (F := Ideal) y = 0 := by
  unfold k0_pay3
  rw [shapeCast_self]
  exact Ideal.ofBits_zero_f32

end Cert.KernelIdeal.Hand

end
-- ==== Proof.Fold.lean ====
/-
  The accumulator of the kernel, step by step.

  A grid step over a block of 256 clouds x 1024 points adds to the 256 x 512 accumulator, at cloud b and column c, the
  number of the block's points of cloud b that are counted in the voxel of column c. The grid runs, for each block of
  256 clouds, eight consecutive steps over the cloud's eight blocks of 1024 points; the first step of a run starts
  from zero. So after any step the accumulator is the sum of what the steps of its run so far have added.
-/
import proofs.«143712_j28561532518446_2_alg».proof.Proof.Gen.KernelIdeal.Value
import proofs.«143712_j28561532518446_2_alg».proof.Proof.Step
import proofs.«143712_j28561532518446_2_alg».proof.Proof.Hist
import proofs.«143712_j28561532518446_2_alg».proof.Proof.Pieces
import proofs.«143712_j28561532518446_2_alg».proof.Proof.TileValue
import proofs.«143712_j28561532518446_2_alg».proof.Proof.ClassifyValue
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx

open Cert.Hist

/-! ## One grid step, read at an index -/

/-- At cloud b of the block and column cc, a grid step adds to what it found the number of the block's 1024 points
    of that cloud counted in the voxel of column cc: the trip owning the column is cc / 128, within its band the
    column is cc % 128, and the three bin numbers read off the band column are those of cc. -/
theorem stepAcc_apply (x0 : Vec Ideal S256x1024x3 .f32) (acc : Vec Ideal S256x512 .f32) (b : Fin 256) (cc : Fin 512) :
    stepAcc x0 acc (ix2 b cc)
      = acc (ix2 b cc) + ∑ n : Fin 1024, hit (pt (B := 256) (N := 1024) x0 b n) (colV cc) (colJ cc) (colK cc) := by
  have hcc := cc.isLt
  show k0_pay1 (F := Ideal) (k0_pay5 x0) (k0_pay6 x0) (k0_pay7 x0) (tripOf ⟨cc.val, _⟩) (band acc (tripOf ⟨cc.val, _⟩))
      (ix2 (⟨b.val, _⟩ : Fin 256) (⟨cc.val % 128, _⟩ : Fin 128)) = _
  rw [pay1_apply]
  congr 1
  · show acc (ix2 (⟨b.val, _⟩ : Fin 256) (⟨128 * (cc.val / 128) + cc.val % 128, _⟩ : Fin 512)) = acc (ix2 b cc)
    congr 2
    exact Fin.ext (by show 128 * (cc.val / 128) + cc.val % 128 = cc.val; omega)
  · refine Finset.sum_congr rfl fun n _ => ?_
    have e1 : (⟨2 * (cc.val / 128) + cc.val % 128 / 64, by omega⟩ : Fin 8) = colV cc := Fin.ext (by show 2 * (cc.val / 128) + cc.val % 128 / 64 = cc.val / 64; omega)
    have e2 : (⟨cc.val % 128 / 8 % 8, by omega⟩ : Fin 8) = colJ cc := Fin.ext (by show cc.val % 128 / 8 % 8 = cc.val / 8 % 8; omega)
    have e3 : (⟨cc.val % 128 % 8, by omega⟩ : Fin 8) = colK cc := Fin.ext (by show cc.val % 128 % 8 = cc.val % 8; omega)
    exact congr (congr (congrArg (hit (pt (B := 256) (N := 1024) x0 (⟨b.val, b.isLt⟩ : Fin 256) n)) e1) e2) e3

/-! ## The accumulator after any grid point -/

section Fold

variable (m : (ℓ : Loc nD τ sig) → Buf (Elt Ideal) ℓ)

/-- The block of points that grid point n stages: 256 clouds of 1024 points. -/
def blk0 (c : Dev nD) (n : ℕ) (h : n < cfg0.N) : Vec Ideal S256x1024x3 .f32 := iblk m c 0 ⟨n, h⟩

/-- What grid point n adds to the accumulator at (cloud, column): the number of its block's points of that cloud that
    are counted in the column's voxel. (Past the grid, zero: never used.) -/
def tileAdd (c : Dev nD) (n : ℕ) : S256x512.Idx → EReal := fun y =>
  if h : n < cfg0.N then
    ∑ nn : Fin 1024, hit (pt (B := 256) (N := 1024) (blk0 m c n h) (⟨(y 0).val, idx2_lt0 y⟩ : Fin 256) nn)
      (colV ⟨(y 1).val, idx2_lt1 y⟩) (colJ ⟨(y 1).val, idx2_lt1 y⟩) (colK ⟨(y 1).val, idx2_lt1 y⟩)
  else 0

theorem tileAdd_ix2 (c : Dev nD) (n : ℕ) (h : n < cfg0.N) (b : Fin 256) (cc : Fin 512) :
    tileAdd m c n (ix2 b cc)
      = ∑ nn : Fin 1024, hit (pt (B := 256) (N := 1024) (blk0 m c n h) b nn) (colV cc) (colJ cc) (colK cc) := by
  unfold tileAdd; rw [dif_pos h]

/-- After grid point t the accumulator holds, from zero at the first of its run of eight points, the sum of what the
    points of the run up to t added. -/
theorem scratch_after (c : Dev nD) (t : Fin cfg0.N) (y : S256x512.Idx) :
    (outsAt0 m c t.val t.isLt).2 y
      = 0 + ∑ s ∈ Finset.range (t.val % 8 + 1), tileAdd m c (8 * (t.val / 8) + s) y := by
  have hN : cfg0.N = 32 := N_0
  rw [Value.soutsAt0_0_eq]
  refine Pipeline.accAt_add_apply (ι := S256x512.Idx) (β := EReal)
    (fun n h => Value.scAt0_0 m c n h (VS0_0.read (Elt Ideal) VS0_0.junk)) (Value.scAt0_0 m c) (fun _ => 0) (tileAdd m c)
    (8 * (t.val / 8)) 7 ?_ ?_ (t.val % 8) (by omega) _ y
  · intro h i
    obtain ⟨b, cc, rfl⟩ : ∃ (b : Fin 256) (cc : Fin 512), i = ix2 b cc := ⟨i 0, i 1, eq_ix2 i⟩
    show Value.scAt0_0 m c (8 * (t.val / 8)) h (VS0_0.read (Elt Ideal) VS0_0.junk) (ix2 b cc) = _
    unfold Value.scAt0_0
    rw [dif_pos (by omega : 8 * (t.val / 8) % 8 = 0), dif_neg (by omega : ¬ 8 * (t.val / 8) % 8 = 7), sout0_A_0_eq,
      stepAcc_apply, pay3_apply, tileAdd_ix2 m c _ h]
    rfl
  · intro n h acc i hlt hle
    obtain ⟨b, cc, rfl⟩ : ∃ (b : Fin 256) (cc : Fin 512), i = ix2 b cc := ⟨i 0, i 1, eq_ix2 i⟩
    have h0 : ¬ n % 8 = 0 := by omega
    unfold Value.scAt0_0
    rw [dif_neg h0]
    by_cases h1 : n % 8 = 7
    · rw [dif_pos h1, sout0_C_0_eq, stepAcc_apply, tileAdd_ix2 m c _ h]; rfl
    · rw [dif_neg h1, sout0_B_0_eq, stepAcc_apply, tileAdd_ix2 m c _ h]; rfl

end Fold

end Cert.KernelIdeal.Hand

end
-- ==== Proof.Blocks.lean ====
/-
  From the kernel's blocks to its result array.

  Grid point t = 8 i + k stages clouds 256 i .. 256 i + 255 and points 1024 k .. 1024 k + 1023 of the point array,
  and the weights and the bias whole. After the last step of a run (k = 7) the accumulator holds, for each of the run's
  clouds, the counts over all 8192 points; that step applies the classifier and writes block i of the result array
  back, and no other step of the run writes. The four writing steps' blocks cover the 1024 rows, so the array after
  the run is the specification of the argument arrays.
-/
import proofs.«143712_j28561532518446_2_alg».proof.Proof.Fold

noncomputable section

namespace Cert.KernelIdeal.Hand

open Cert.KernelIdeal Cert.KernelIdeal.Gen Idealize.ShloMosaic Idealize.ShloMosaic.TcCoe Idealize.SL.Sem Idealize.ShloMosaic.ValueIdx

open Cert.Hist

/-! ## The windows' blocks as parts of the argument arrays -/

section Blocks

variable (m : (ℓ : Loc nD τ sig) → Buf (Elt Ideal) ℓ)

/-- The three argument arrays as the region finds them, typed by their literal shapes. -/
def argX (c : Dev nD) : (⟨3, ![1024, 8192, 3]⟩ : Shape).Idx → EReal := V m c main_arg0
def argW (c : Dev nD) : (⟨2, ![40, 512]⟩ : Shape).Idx → EReal := V m c main_arg1
def argB (c : Dev nD) : (⟨1, ![40]⟩ : Shape).Idx → EReal := V m c main_arg2

/-- The printed index maps over the grid of 4 x 8 points, point t being (t / 8, t % 8): the block of points moves along
    the clouds with t / 8 and along the points with t % 8; weights and bias are staged whole; the output block moves
    along the clouds with t / 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val / 8 ∧ win0_3.index t (1 : Fin 2) = 0 :=
  (by decide +kernel : ∀ t : Fin grid0.N, _)

/-- The output block is written back exactly at the last point of each run of eight. -/
theorem flush_iff : ∀ t : Fin cfg0.N, (cfg0.win 3).flush t = true ↔ t.val % 8 = 7 :=
  (by decide +kernel : ∀ t : Fin grid0.N, _)

/-- Point n's block of points, entry by entry: cloud 256 (n / 8) + bl, point 1024 (n % 8) + nn of the whole array. -/
theorem blk0_apply (c : Dev nD) (n : ℕ) (h : n < cfg0.N) (bl : Fin 256) (nn : Fin 1024) (a : Fin 3) :
    blk0 m c n h (ix3 bl nn a)
      = argX m c (ix3 (⟨256 * (n / 8) + bl.val, by have := bl.isLt; have h32 : n < 32 := lt_of_lt_of_eq h N_0; omega⟩ : Fin 1024)
          (⟨1024 * (n % 8) + nn.val, by have := nn.isLt; omega⟩ : Fin 8192) a) := by
  obtain ⟨e0, e1, e2, -⟩ := idx_facts ⟨n, h⟩
  show V m c main_arg0 (((cfg0.win 0).blk ⟨n, h⟩).view.emb (ix3 bl nn a)) = V m c main_arg0 _
  refine congrArg (V m c main_arg0) ?_
  funext d; apply Fin.ext
  match d with
  | ⟨0, _⟩ => show win0_0.index ⟨n, h⟩ (0 : Fin 3) * 256 + 1 * bl.val = 256 * (n / 8) + bl.val; rw [e0]; show n / 8 * 256 + 1 * bl.val = _; omega
  | ⟨1, _⟩ => show win0_0.index ⟨n, h⟩ (1 : Fin 3) * 1024 + 1 * nn.val = 1024 * (n % 8) + nn.val; rw [e1]; show n % 8 * 1024 + 1 * nn.val = _; omega
  | ⟨2, _⟩ => show win0_0.index ⟨n, h⟩ (2 : Fin 3) * 3 + 1 * a.val = a.val; rw [e2]; omega

/-- The weights' block at any point is the whole array. -/
theorem blk1_apply (c : Dev nD) (t : Fin cfg0.N) (q : Fin 40) (cc : Fin 512) :
    (iblk m c 1 t : Vec Ideal S40x512 .f32) (ix2 q cc) = argW m c (ix2 q cc) := by
  obtain ⟨-, -, -, e3, e4, -⟩ := idx_facts t
  show V m c main_arg1 (((cfg0.win 1).blk t).view.emb (ix2 q cc)) = V m c main_arg1 _
  refine congrArg (V m c main_arg1) ?_
  funext d; apply Fin.ext
  match d with
  | ⟨0, _⟩ => show win0_1.index t (0 : Fin 2) * 40 + 1 * q.val = q.val; rw [e3]; omega
  | ⟨1, _⟩ => show win0_1.index t (1 : Fin 2) * 512 + 1 * cc.val = cc.val; rw [e4]; omega

/-- The bias's block at any point is the whole array. -/
theorem blk2_apply (c : Dev nD) (t : Fin cfg0.N) (q : Fin 40) :
    (iblk m c 2 t : Vec Ideal S40 .f32) (ix1 q) = argB m c (ix1 q) := by
  obtain ⟨-, -, -, -, -, e5, -⟩ := idx_facts t
  show V m c main_arg2 (((cfg0.win 2).blk t).view.emb (ix1 q)) = V m c main_arg2 _
  refine congrArg (V m c main_arg2) ?_
  funext d; apply Fin.ext
  match d with
  | ⟨0, _⟩ => show win0_2.index t (0 : Fin 1) * 40 + 1 * q.val = q.val; rw [e5]; omega

/-! ## Eight steps of 1024 points are the cloud's 8192 points -/

/-- A sum over 8 x 1024 positions, position (s, nn) being 1024 s + nn, is the sum over 8192. -/
theorem sum_steps (f : Fin 8192 → EReal) :
    ∑ s ∈ Finset.range 8, (if hs : s < 8 then ∑ nn : Fin 1024, f ⟨1024 * s + nn.val, by have := nn.isLt; omega⟩ else 0)
      = ∑ n : Fin 8192, f n := by
  rw [Finset.sum_range]
  have e : ∀ s : Fin 8, (if hs : s.val < 8 then ∑ nn : Fin 1024, f ⟨1024 * s.val + nn.val, by have := nn.isLt; omega⟩ else 0)
      = ∑ nn : Fin 1024, f (finProdFinEquiv (s, nn)) := fun s => by
    rw [dif_pos s.isLt]
    refine Finset.sum_congr rfl fun nn _ => congrArg f (Fin.ext ?_)
    show 1024 * s.val + nn.val = nn.val + 1024 * s.val
    omega
  rw [Finset.sum_congr rfl fun s _ => e s, ← Fintype.sum_prod_type (f := fun p : Fin 8 × Fin 1024 => f (finProdFinEquiv p))]
  exact Equiv.sum_comp (finProdFinEquiv (m := 8) (n := 1024)) f

end Blocks

/-! ## What the last point of a run writes back, and the array after the run -/

section Final

variable (m : (ℓ : Loc nD τ sig) → Buf (Elt Ideal) ℓ)

theorem argX_congr (c : Dev nD) {b b' : Fin 1024} {n n' : Fin 8192} (hb : b = b') (hn : n = n') (a : Fin 3) :
    argX m c (ix3 b n a) = argX m c (ix3 b' n' a) := by rw [hb, hn]

/-- After the last point of a run of eight the accumulator holds, for each cloud of the run's 256 and each column, the
    cloud's count: the eight blocks of 1024 points are the cloud's 8192 points. -/
theorem scratch_last (c : Dev nD) (t : Fin cfg0.N) (h7 : t.val % 8 = 7) (bl : Fin 256) (cc : Fin 512) :
    (outsAt0 m c t.val t.isLt).2 (ix2 bl cc)
      = Cert.Hist.count (argX m c) (⟨256 * (t.val / 8) + bl.val, by have := bl.isLt; have h32 : t.val < 32 := lt_of_lt_of_eq t.isLt N_0; omega⟩ : Fin 1024) cc := by
  have h32 : t.val < 32 := lt_of_lt_of_eq t.isLt N_0
  have hN : cfg0.N = 32 := N_0
  have hbl := bl.isLt
  rw [scratch_after, zero_add, h7]
  unfold Cert.Hist.count
  rw [← sum_steps]
  refine Finset.sum_congr rfl fun s hs => ?_
  have hs8 : s < 8 := Finset.mem_range.mp hs
  have hlt : 8 * (t.val / 8) + s < cfg0.N := by omega
  rw [dif_pos hs8, tileAdd_ix2 m c _ hlt]
  refine Finset.sum_congr rfl fun nn _ => ?_
  have hnn := nn.isLt
  have hp : pt (B := 256) (N := 1024) (blk0 m c (8 * (t.val / 8) + s) hlt) bl nn
      = pt (argX m c) (⟨256 * (t.val / 8) + bl.val, by omega⟩ : Fin 1024) (⟨1024 * s + nn.val, by omega⟩ : Fin 8192) := by
    funext a
    show blk0 m c (8 * (t.val / 8) + s) hlt (ix3 bl nn a) = argX m c (ix3 _ _ a)
    rw [blk0_apply]
    exact argX_congr m c (Fin.ext (by show 256 * ((8 * (t.val / 8) + s) / 8) + bl.val = 256 * (t.val / 8) + bl.val; omega))
      (Fin.ext (by show 1024 * ((8 * (t.val / 8) + s) % 8) + nn.val = 1024 * s + nn.val; omega)) a
  rw [hp]

/-- The classifier at one entry, from an accumulator that holds a cloud's counts, whole weights and whole bias. -/
theorem out_point (acc : Vec Ideal S256x512 .f32) (W : Vec Ideal S40x512 .f32) (bias : Vec Ideal S40 .f32)
    (X : (⟨3, ![1024, 8192, 3]⟩ : Shape).Idx → EReal) (Wg : (⟨2, ![40, 512]⟩ : Shape).Idx → EReal)
    (Bg : (⟨1, ![40]⟩ : Shape).Idx → EReal) (bg : Fin 1024) (bl : Fin 256) (q : Fin 40)
    (hacc : ∀ cc : Fin 512, acc (ix2 bl cc) = Cert.Hist.count X bg cc) (hW : ∀ cc : Fin 512, W (ix2 q cc) = Wg (ix2 q cc))
    (hB : bias (ix1 q) = Bg (ix1 q)) :
    k0_pay2 (F := Ideal) acc W bias (ix2 bl q) = resultAt X Wg Bg bg q := by
  rw [pay2_apply, hB]
  unfold resultAt
  congr 1
  exact Finset.sum_congr rfl fun cc _ => by rw [hacc, hW]

/-- WHAT A WRITING POINT WRITES BACK is its block of the result array. -/
theorem flushed3_eq (c : Dev nD) (t : Fin cfg0.N) (hf : (cfg0.win 3).flush t = true) :
    (dats m 0 c).flushed 3 t
      = ((cfg0.win 3).blk t).view.read (Elt Ideal) (G (argX m c) (argW m c) (argB m c)) := by
  have h7 : t.val % 8 = 7 := (flush_iff t).mp hf
  have h0 : ¬ t.val % 8 = 0 := by omega
  have h32 : t.val < 32 := lt_of_lt_of_eq t.isLt N_0
  obtain ⟨-, -, -, -, -, -, e6, e7⟩ := idx_facts t
  rw [Value.flushed3_C m c t h0 h7, out0_C_3_eq]
  have e : stepAcc (iblk m c 0 t) (outsAt0 m c (t.val - 1) (Nat.lt_of_le_of_lt (Nat.sub_le _ _) t.isLt)).2
      = (outsAt0 m c t.val t.isLt).2 := by
    rw [outsAt0_C m c t h0 h7]; exact (sout0_C_0_eq ..).symm
  rw [e]
  funext j
  obtain ⟨bl, q, rfl⟩ : ∃ (bl : Fin 256) (q : Fin 40), j = ix2 bl q := ⟨j 0, j 1, eq_ix2 j⟩
  have hbl := bl.isLt
  have hemb : ((cfg0.win 3).blk t).view.emb (ix2 bl q)
      = ix2 (⟨256 * (t.val / 8) + bl.val, by omega⟩ : Fin 1024) q := by
    funext d; apply Fin.ext
    match d with
    | ⟨0, _⟩ => show win0_3.index t (0 : Fin 2) * 256 + 1 * bl.val = 256 * (t.val / 8) + bl.val; rw [e6]; omega
    | ⟨1, _⟩ => show win0_3.index t (1 : Fin 2) * 40 + 1 * q.val = q.val; rw [e7]; omega
  show k0_pay2 (F := Ideal) (outsAt0 m c t.val t.isLt).2 (iblk m c 1 t) (iblk m c 2 t) (ix2 bl q)
      = G (argX m c) (argW m c) (argB m c) (((cfg0.win 3).blk t).view.emb (ix2 bl q))
  rw [hemb, G_ix2]
  exact out_point (outsAt0 m c t.val t.isLt).2 (iblk m c 1 t) (iblk m c 2 t) (argX m c) (argW m c) (argB m c) _ bl q
    (fun cc => scratch_last m c t h7 bl cc) (fun cc => blk1_apply m c t q cc) (blk2_apply m c t q)

/-- An index of the result array is in point t's block iff each coordinate is in the block's range on its axis. -/
theorem mem_blk3 (t : Fin cfg0.N) (i : S1024x40.Idx) :
    i ∈ ((cfg0.win 3).blk t).view.set ↔ ∀ a : Fin 2, win0_3.index t a * S256x40.size a ≤ (i a).val ∧ (i a).val < win0_3.index t a * S256x40.size a + S256x40.size a := by
  show i ∈ ((View.whole main_v0).slice (win0_3.rect t)).set ↔ _
  rw [View.set_slice_whole, Rect.mem_set_unit]
  exact Iff.rfl

/-- Every entry of the result array lies in the block of a writing point: row r in that of the last point of run r / 256. -/
theorem cover3 (i : S1024x40.Idx) :
    ∃ t : Fin cfg0.N, (cfg0.win 3).flush t = true ∧ i ∈ ((cfg0.win 3).blk t).view.set := by
  have hi0 : (i 0).val < 1024 := (i 0).isLt
  have hi1 : (i 1).val < 40 := (i 1).isLt
  have hN : cfg0.N = 32 := N_0
  have ht : 8 * ((i 0).val / 256) + 7 < cfg0.N := by omega
  obtain ⟨-, -, -, -, -, -, e6, e7⟩ := idx_facts ⟨8 * ((i 0).val / 256) + 7, ht⟩
  refine ⟨⟨8 * ((i 0).val / 256) + 7, ht⟩, (flush_iff _).mpr (by show (8 * ((i 0).val / 256) + 7) % 8 = 7; omega), ?_⟩
  rw [mem_blk3]
  intro a
  match a with
  | ⟨0, _⟩ =>
    show win0_3.index ⟨8 * ((i 0).val / 256) + 7, ht⟩ (0 : Fin 2) * 256 ≤ (i 0).val ∧ (i 0).val < win0_3.index ⟨8 * ((i 0).val / 256) + 7, ht⟩ (0 : Fin 2) * 256 + 256
    rw [e6]
    show (8 * ((i 0).val / 256) + 7) / 8 * 256 ≤ (i 0).val ∧ (i 0).val < (8 * ((i 0).val / 256) + 7) / 8 * 256 + 256
    omega
  | ⟨1, _⟩ =>
    show win0_3.index ⟨8 * ((i 0).val / 256) + 7, ht⟩ (1 : Fin 2) * 40 ≤ (i 1).val ∧ (i 1).val < win0_3.index ⟨8 * ((i 0).val / 256) + 7, ht⟩ (1 : Fin 2) * 40 + 40
    rw [e7]
    omega

/-- THE RESULT ARRAY after the run. -/
theorem final3 (c : Dev nD) : (dats m 0 c).arrAt 3 cfg0.N = G (argX m c) (argW m c) (argB m c) :=
  (dats m 0 c).arrAt_eq_of_cover 3 _ (fun t hf => flushed3_eq m c t hf) cover3

/-- The kernel's run: the result array is the specification of the argument arrays, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Value.run_blocks m ρ)

end Final

end Cert.KernelIdeal.Hand

end
-- ==== Proof.SegArith.lean ====
/-
  The arithmetic of the reference's flat segment id.

  A point of cloud b with bin numbers w0, w1, w2 (each below 8) is sent to the word b * 512 + ((w0 * 8 + w1) * 8 + w2),
  computed in wrapping 32-bit arithmetic; nothing wraps, since the value is below 2^19. A point that is not counted
  is sent to the word 524288 = 1024 * 512, which is no position of any cloud's row. So the destination, read as a
  signed integer, equals position b * 512 + c (c below 512) exactly when the point is counted, belongs to cloud b
  and its bin numbers are the three base-8 digits of c.
-/
import proofs.«143712_j28561532518446_2_alg».proof.Proof.Hist

noncomputable section

namespace Cert.ReferenceIdeal.Hand

open Idealize.ShloMosaic Idealize.ShloMosaic.ValueIdx

/-- The segment id of a point of cloud b with the bin numbers w0, w1, w2, in 32-bit arithmetic. -/
def segW (b : Fin 1024) (w0 w1 w2 : BitVec 32) : BitVec 32 :=
  IntOp.addi (IntOp.muli (BitVec.ofNat 32 b.val) 512#32)
    (IntOp.addi (IntOp.muli (IntOp.addi (IntOp.muli w0 8#32) w1) 8#32) w2)

/-- With bin numbers below 8 the segment id is the number b * 512 + ((w0 * 8 + w1) * 8 + w2): no step wraps. -/
theorem segW_toNat (b : Fin 1024) (w0 w1 w2 : BitVec 32) (h0 : w0.toNat < 8) (h1 : w1.toNat < 8) (h2 : w2.toNat < 8) :
    (segW b w0 w1 w2).toNat = b.val * 512 + ((w0.toNat * 8 + w1.toNat) * 8 + w2.toNat) := by
  unfold segW IntOp.addi IntOp.muli
  have hb := b.isLt
  simp only [BitVec.toNat_add, BitVec.toNat_mul, BitVec.toNat_ofNat, Nat.reducePow, Nat.reduceMod]
  omega

/-- A 32-bit word is the word of a number below 8 exactly when that number is its value. -/
theorem word_eq_ofNat_iff (w : BitVec 32) (k : Nat) (hk : k < 8) : w = BitVec.ofNat 32 k ↔ w.toNat = k := by
  constructor
  · rintro rfl
    rw [BitVec.toNat_ofNat]
    omega
  · intro h
    apply BitVec.eq_of_toNat_eq
    rw [h, BitVec.toNat_ofNat]
    omega

/-- WHERE A POINT LANDS: the selected destination word, read signed, is position b * 512 + c exactly when the point is
    counted, is of cloud b, and has the digits of c as its bin numbers. -/
theorem select_seg_toInt_iff (v : BitVec 1) (b' b : Fin 1024) (c : Fin 512) (w0 w1 w2 : BitVec 32)
    (hw : v = 1#1 → w0.toNat < 8 ∧ w1.toNat < 8 ∧ w2.toNat < 8) :
    (Scalar.select v (segW b' w0 w1 w2) 524288#32).toInt = ((b.val * 512 + c.val : Nat) : Int)
      ↔ v = 1#1 ∧ b' = b ∧ w0.toNat = c.val / 64 ∧ w1.toNat = c.val / 8 % 8 ∧ w2.toNat = c.val % 8 := by
  have hb := b.isLt
  have hb' := b'.isLt
  have hc := c.isLt
  rcases BitVec.eq_zero_or_eq_one v with rfl | rfl
  · rw [select_zero]
    have e : (524288#32 : BitVec 32).toInt = 524288 := by decide
    rw [e]
    constructor
    · intro h; omega
    · rintro ⟨h, _⟩; exact absurd h (by decide)
  · obtain ⟨h0, h1, h2⟩ := hw rfl
    rw [select_one, BitVec.toInt_eq_toNat_cond, segW_toNat b' w0 w1 w2 h0 h1 h2]
    simp only [Nat.reducePow]
    constructor
    · intro h
      refine ⟨trivial, Fin.ext ?_, ?_, ?_, ?_⟩ <;> (split at h <;> omega)
    · rintro ⟨_, rfl, e0, e1, e2⟩
      split <;> omega

end Cert.ReferenceIdeal.Hand

end
-- ==== Proof.RefBits.lean ====
/-
  The reference program's integer stages, read at one point (b, n) of the cloud array.

  Its bin-number array at (b, n, a) is the bin number of coordinate a of point n of cloud b; its range-test array
  is that coordinate's range test; the and-reduction over the three coordinates is 1 exactly when the point is
  counted; and the destination it scatters the point to is the word b * 512 + ((i0 * 8 + i1) * 8 + i2) of the three
  bin numbers when the point is counted, and the word 524288 when it is not.
-/
import proofs.«143712_j28561532518446_2_alg».proof.Proof.RefRead
import proofs.«143712_j28561532518446_2_alg».proof.Proof.Hist
import proofs.«143712_j28561532518446_2_alg».proof.Proof.SegArith
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## One coordinate -/

/-- The bin-number array at (b, n, a). -/
theorem v7_at (x0 : (⟨S1024x8192x3, .f32⟩ : BufTy).Contents (Elt Ideal)) (b : Fin 1024) (n : Fin 8192) (a : Fin 3) :
    val_main_v7 (F := Ideal) x0 (ix3 b n a) = Cert.Hist.binW (x0 (ix3 b n a)) := by
  rw [val_main_v7_apply, val_main_v5_apply, val_main_v4_apply, val_main_v3_apply, val_main_v1_apply, val_main_v0_apply,
    val_main_cst_apply, val_main_v2_apply, val_main_cst_0_apply, val_main_v6_apply, val_main_c_apply]
  rfl

/-- The range-test array at (b, n, a). -/
theorem v12_at (x0 : (⟨S1024x8192x3, .f32⟩ : BufTy).Contents (Elt Ideal)) (b : Fin 1024) (n : Fin 8192) (a : Fin 3) :
    val_main_v12 (F := Ideal) x0 (ix3 b n a) = Cert.Hist.inW (x0 (ix3 b n a)) := by
  rw [val_main_v12_apply, val_main_v9_apply, val_main_v8_apply, val_main_cst_1_apply, val_main_v11_apply,
    val_main_v10_apply, val_main_cst_2_apply]
  rfl

/-! ## The three coordinates of a point together -/

/-- A fold by the one-bit conjunction, from 1, is 1 exactly when every word folded is 1. -/
theorem fold_andi_eq_one {ι : Type} (S : Finset ι) (f : ι → BitVec 1) :
    S.fold IntOp.andi 1#1 f = 1#1 ↔ ∀ a ∈ S, f a = 1#1 := by
  induction S using Finset.cons_induction with
  | empty => simp
  | cons a S ha ih =>
    rw [Finset.fold_cons, Finset.forall_mem_cons, ← ih]
    generalize Finset.fold IntOp.andi 1#1 f S = r
    generalize f a = c
    revert c r; decide

theorem reduces_points : S1024x8192x3.Reduces [(2 : Fin S1024x8192x3.rank)] S1024x8192 := by decide

/-- The index of coordinate a of point (b, n), as the reduction over the last axis names it. -/
theorem lift_point (b : Fin 1024) (n : Fin 8192) (a : Fin 3) :
    reduces_points.lift (ix2 b n) a = ix3 b n a := by
  funext c
  refine Fin.ext ?_
  match c with
  | ⟨0, _⟩ => rfl
  | ⟨1, _⟩ => rfl
  | ⟨2, _⟩ => rfl

/-- The and-reduction over a point's three range tests is 1 exactly when the point is counted. -/
theorem v13_at (x0 : (⟨S1024x8192x3, .f32⟩ : BufTy).Contents (Elt Ideal)) (b : Fin 1024) (n : Fin 8192) :
    val_main_v13 (F := Ideal) x0 (ix2 b n) = 1#1 ↔ Cert.Hist.Valid (Cert.Hist.pt x0 b n) := by
  unfold val_main_v13
  have hy : ∀ a : Fin 3, val_main_v12 (F := Ideal) x0 (ix3 b n a) = Cert.Hist.inW (x0 (ix3 b n a)) := v12_at x0 b n
  generalize val_main_v12 (F := Ideal) x0 = y at hy
  rw [Host.reduce_eq_fold_single IntOp.andi y _ reducesTo_S1024x8192x3_S1024x8192_d2 reduces_points h_S_ (ix2 b n)]
  rw [show val_main_c_3 (F := Ideal) (Shape.Idx.first h_S_) = 1#1 from rfl, fold_andi_eq_one]
  constructor
  · intro h a
    have ha : y (reduces_points.lift (ix2 b n) a) = 1#1 := h a (Finset.mem_univ _)
    show Cert.Hist.inW (x0 (ix3 b n a)) = 1#1
    rw [← hy a, ← lift_point b n a]
    exact ha
  · intro h a _
    exact (congrArg y (lift_point b n a)).trans ((hy a).trans (h a))

/-! ## The destination word -/

theorem idx_coord0 (b : Fin 1024) (n : Fin 8192) : idx_main_v14 (idx_main_v15 (ix2 b n)) = ix3 b n (0 : Fin 3) := by
  funext a
  refine Fin.ext ?_
  have hb := b.isLt
  have hn := n.isLt
  match a with
  | ⟨0, _⟩ => show (b.val * 8192 + n.val) / 8192 = b.val; omega
  | ⟨1, _⟩ => show (b.val * 8192 + n.val) / 1 % 8192 = n.val; omega
  | ⟨2, _⟩ => rfl

theorem idx_coord1 (b : Fin 1024) (n : Fin 8192) : idx_main_v18 (idx_main_v19 (ix2 b n)) = ix3 b n (1 : Fin 3) := by
  funext a
  refine Fin.ext ?_
  have hb := b.isLt
  have hn := n.isLt
  match a with
  | ⟨0, _⟩ => show (b.val * 8192 + n.val) / 8192 = b.val; omega
  | ⟨1, _⟩ => show (b.val * 8192 + n.val) / 1 % 8192 = n.val; omega
  | ⟨2, _⟩ => rfl

theorem idx_coord2 (b : Fin 1024) (n : Fin 8192) : idx_main_v23 (idx_main_v24 (ix2 b n)) = ix3 b n (2 : Fin 3) := by
  funext a
  refine Fin.ext ?_
  have hb := b.isLt
  have hn := n.isLt
  match a with
  | ⟨0, _⟩ => show (b.val * 8192 + n.val) / 8192 = b.val; omega
  | ⟨1, _⟩ => show (b.val * 8192 + n.val) / 1 % 8192 = n.val; omega
  | ⟨2, _⟩ => rfl

/-- The segment-id array at (b, n). -/
theorem v31_at (x0 : (⟨S1024x8192x3, .f32⟩ : BufTy).Contents (Elt Ideal)) (b : Fin 1024) (n : Fin 8192) :
    val_main_v31 (F := Ideal) x0 (ix2 b n)
      = segW b (Cert.Hist.binW (x0 (ix3 b n 0))) (Cert.Hist.binW (x0 (ix3 b n 1))) (Cert.Hist.binW (x0 (ix3 b n 2))) := by
  rw [val_main_v31_apply, val_main_v30_apply, val_main_v29_apply, val_main_v27_apply, val_main_v26_apply,
    val_main_v28_apply, val_main_c_6_apply, val_main_v25_apply, val_main_v22_apply, val_main_v20_apply,
    val_main_v17_apply, val_main_v15_apply, val_main_v14_apply, val_main_v16_apply, val_main_c_4_apply,
    val_main_v19_apply, val_main_v18_apply, val_main_v21_apply, val_main_c_5_apply, val_main_v24_apply,
    val_main_v23_apply, idx_coord0, idx_coord1, idx_coord2, v7_at, v7_at, v7_at]
  rfl

/-- The destination word of point n of cloud b: its segment id when it is counted, 524288 when not. -/
def destW (x0 : (⟨S1024x8192x3, .f32⟩ : BufTy).Contents (Elt Ideal)) (b : Fin 1024) (n : Fin 8192) : BitVec 32 :=
  Scalar.select (val_main_v13 (F := Ideal) x0 (ix2 b n))
    (segW b (Cert.Hist.binW (x0 (ix3 b n 0))) (Cert.Hist.binW (x0 (ix3 b n 1))) (Cert.Hist.binW (x0 (ix3 b n 2))))
    524288#32

/-- The selected segment-id array at (b, n). -/
theorem v32_at (x0 : (⟨S1024x8192x3, .f32⟩ : BufTy).Contents (Elt Ideal)) (b : Fin 1024) (n : Fin 8192) :
    val_main_v32 (F := Ideal) x0 (ix2 b n) = destW x0 b n := by
  rw [val_main_v32_apply, v31_at, val_main_call0_v1_apply, val_main_call0_v0_apply, val_main_c_7_apply]
  rfl

/-- The flat position of point n of cloud b among all points. -/
def flat (b : Fin 1024) (n : Fin 8192) : Fin 8388608 :=
  ⟨b.val * 8192 + n.val, by have := b.isLt; have := n.isLt; omega⟩

theorem idx_flat (b : Fin 1024) (n : Fin 8192) :
    idx_main_v35 (idx_main_v37 (ix2 (flat b n) (0 : Fin 1))) = ix2 b n := by
  funext a
  refine Fin.ext ?_
  have hb := b.isLt
  have hn := n.isLt
  match a with
  | ⟨0, _⟩ => show (b.val * 8192 + n.val) / 8192 = b.val; omega
  | ⟨1, _⟩ => show (b.val * 8192 + n.val) % 8192 = n.val; omega

/-- The column of destinations at the flat position of (b, n). -/
theorem v37_at (x0 : (⟨S1024x8192x3, .f32⟩ : BufTy).Contents (Elt Ideal)) (b : Fin 1024) (n : Fin 8192) :
    val_main_v37 (F := Ideal) x0 (ix2 (flat b n) (0 : Fin 1)) = destW x0 b n := by
  rw [val_main_v37_apply, val_main_v35_apply, idx_flat, v32_at]

end Cert.ReferenceIdeal.Hand

end
-- ==== Proof.BinRange.lean ====
/-
  The bin number of a coordinate that passes the range test is one of 0, …, 7.

  A coordinate t with -2 ≤ t ≤ 2 is a real number r (neither infinity passes both comparisons). Then
  (r - (-2)) / (1/2) = (r + 2) * 2 lies in [0, 8], its floor is an integer z with 0 ≤ z ≤ 8, the conversion to a
  32-bit integer keeps z (no clamping, no wrap), and the signed minimum with 7 lies in 0, …, 7.
-/
import proofs.«143712_j28561532518446_2_alg».proof.Proof.Hist

noncomputable section

namespace Cert.Hist

open Idealize.ShloMosaic

/-- A one-bit conjunction is 1 exactly when both words are. -/
theorem andi_one_iff (c d : BitVec 1) : IntOp.andi c d = 1#1 ↔ c = 1#1 ∧ d = 1#1 := by
  revert c d; decide

/-- The one-bit word of a Boolean is 1 exactly when the Boolean holds. -/
theorem ofBool_decide_eq_one (p : Prop) [Decidable p] : BitVec.ofBool (decide p) = 1#1 ↔ p := by
  by_cases hp : p <;> simp [hp]

/-- The range test passes exactly for -2 ≤ t ≤ 2. -/
theorem inW_eq_one_iff (t : EReal) :
    inW t = 1#1 ↔ ((-2 : ℝ) : EReal) ≤ t ∧ t ≤ ((2 : ℝ) : EReal) := by
  unfold inW
  rw [andi_one_iff, ofBits_neg_two, ofBits_two]
  unfold Ideal.cmp
  exact and_congr (ofBool_decide_eq_one _) (ofBool_decide_eq_one _)

/-- A coordinate that passes the range test is a real number in [-2, 2]. -/
theorem exists_real_of_inW {t : EReal} (h : inW t = 1#1) : ∃ r : ℝ, t = (r : EReal) ∧ -2 ≤ r ∧ r ≤ 2 := by
  obtain ⟨h1, h2⟩ := (inW_eq_one_iff t).1 h
  induction t using EReal.rec with
  | bot => exact absurd h1 (by simp)
  | top => exact absurd h2 (by simp)
  | coe r => exact ⟨r, rfl, EReal.coe_le_coe_iff.1 h1, EReal.coe_le_coe_iff.1 h2⟩

/-- The bin number of a real coordinate: the floor of (r + 2) * 2, converted and capped at 7. -/
theorem binW_coe (r : ℝ) :
    binW (r : EReal) = IntOp.minsi (Ideal.fptosi 32 (((⌊(r + 2) * 2⌋ : ℤ) : ℝ) : EReal)) 7#32 := by
  unfold binW
  rw [ofBits_neg_two, ofBits_half, Ideal.div_coe (by norm_num : (1 / 2 : ℝ) ≠ 0), ← EReal.coe_sub, ← EReal.coe_mul,
    Ideal.liftRound_coe, one_div_one_div, sub_neg_eq_add]

/-- Converting an integer 0 ≤ z ≤ 8 held as a real gives the word of z. -/
theorem fptosi_intCast {z : ℤ} (h0 : 0 ≤ z) (h8 : z ≤ 8) :
    Ideal.fptosi 32 (((z : ℤ) : ℝ) : EReal) = BitVec.ofInt 32 z := by
  unfold Ideal.fptosi
  congr 1
  show max _ (min _ (if (0 : ℝ) ≤ ((z : ℤ) : ℝ) then ⌊((z : ℤ) : ℝ)⌋ else ⌈((z : ℤ) : ℝ)⌉)) = z
  rw [if_pos (by exact_mod_cast h0), Int.floor_intCast]
  norm_num
  omega

/-- THE RANGE OF A BIN NUMBER: a coordinate in [-2, 2] has a bin number below 8. -/
theorem binW_toNat_lt {t : EReal} (h : inW t = 1#1) : (binW t).toNat < 8 := by
  obtain ⟨r, rfl, hlo, hhi⟩ := exists_real_of_inW h
  rw [binW_coe]
  have h0 : (0 : ℤ) ≤ ⌊(r + 2) * 2⌋ := Int.floor_nonneg.2 (by nlinarith)
  have h8 : ⌊(r + 2) * 2⌋ ≤ (8 : ℤ) := by
    have : ⌊(r + 2) * 2⌋ ≤ ⌊(8 : ℝ)⌋ := Int.floor_mono (by nlinarith)
    simpa using this
  rw [fptosi_intCast h0 h8]
  generalize ⌊(r + 2) * 2⌋ = z at h0 h8
  obtain ⟨k, rfl⟩ := Int.eq_ofNat_of_zero_le h0
  have hk : k ≤ 8 := by exact_mod_cast h8
  interval_cases k <;> decide

end Cert.Hist

end
-- ==== Proof.LibSegment.lean ====
/-
  A row gather and a row scatter-add, read at one index.

  Gathering whole rows of an `[M, C]` table at a column `[E, 1]` of row numbers gives an `[E, C]` array whose entry
  `(e, c)` is the table's entry `(r, c)`, `r` the `e`-th row number read as a signed integer and clamped into
  `[0, M - 1]`. Scatter-adding the rows of an `[E, C]` array of updates into an `[N, C]` operand at a column
  `[E, 1]` of destination rows gives, at `(n, c)`, the operand's entry plus the sum over all `e` whose destination,
  read as a signed integer, is exactly `n`, of the update's entry `(e, c)` (a destination outside `[0, N)` contributes
  nothing, since it equals no `n`). The same holds for an `[E]` vector of updates scatter-added into an `[N]` vector.
  The scatter statements are at the exact-arithmetic instance (entries are extended reals), where the sum's order does
  not matter. All extents are arbitrary naturals; nothing here enumerates an index set.
-/
import Idealize.ShloMosaic.Lib.ValueIdx

noncomputable section

open scoped BigOperators

namespace Cert.LibSegment

open Idealize.ShloMosaic Idealize.ShloMosaic.ValueIdx

/-! ## The dimension numbers -/

/-- Scatter of `[E, C]` update rows into an `[N, C]` operand at `[E, 1]` destination rows: the update's axis 1 is the
    window (a whole row), operand axis 0 is the inserted one the index names. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of an `[E]` vector of updates into an `[N]` operand at `[E, 1]` destinations: no window axis. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of whole rows of an `[M, C]` table at `[E, 1]` row numbers: slices `[1, C]`, operand axis 0 collapsed, the
    result's axis 1 the offset along the row. -/
abbrev rowGather (M E C : ℕ) (wf : GatherDims.WF ⟨2, ![M, C]⟩ ⟨2, ![E, 1]⟩ ⟨2, ![E, C]⟩ [1] [0] [] [0] [] 1 ![1, C]) :
    GatherDims ⟨2, ![M, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, M - 1]`. -/
def clampRow (M : ℕ) (hM : 0 < M) {w : ℕ} (z : BitVec w) : Fin M := ⟨min z.toInt.toNat (M - 1), by omega⟩

/-! ## The gather at an index -/

/-- THE ROW GATHER READ AT `(e, c)`: the table at the clamped row the `e`-th start index names, column `c`. -/
theorem gather_rows_apply {α : Type} {M E C w : ℕ} (hM : 0 < M)
    (wf : GatherDims.WF ⟨2, ![M, C]⟩ ⟨2, ![E, 1]⟩ ⟨2, ![E, C]⟩ [1] [0] [] [0] [] 1 ![1, C])
    (x : (⟨2, ![M, C]⟩ : Shape).Idx → α) (idx : IVec ⟨2, ![E, 1]⟩ w) (e : Fin E) (c : Fin C) :
    Host.gather (rowGather M E C wf) x idx (ix2 e c) = x (ix2 (clampRow M hM (idx (ix2 e (0 : Fin 1)))) c) := by
  unfold Host.gather
  congr 1
  funext a
  refine Fin.ext ?_
  match a with
  | ⟨0, _⟩ =>
    show (rowGather M E C wf).start (ix2 e c) idx (0 : Fin 2) + (rowGather M E C wf).batchCoord (ix2 e c) (0 : Fin 2)
      + (rowGather M E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather M E C wf).startIndexMap from List.mem_singleton.mpr rfl)]
    have hsi : (rowGather M E C wf).siIdx (ix2 e c) ⟨List.idxOf (0 : Fin 2) (rowGather M E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather M E C wf).start (ix2 e c) idx (1 : Fin 2) + (rowGather M E C wf).batchCoord (ix2 e c) (1 : Fin 2)
      + (rowGather M E C wf).offCoord (ix2 e c) (1 : Fin 2) = c.val
    rw [GatherDims.batchCoord_eq_zero _ _ _ List.not_mem_nil]
    have hs : (rowGather M E C wf).start (ix2 e c) idx (1 : Fin 2) = 0 := rfl
    have ho : (rowGather M E C wf).offCoord (ix2 e c) (1 : Fin 2) = c.val := rfl
    rw [hs, ho]; omega

/-! ## Where an update lands -/

/-- An update index lands on operand index `i` exactly when, on every operand axis, start plus window coordinate is
    `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have h' := congrArg Fin.val (congrFun (Option.some.inj h) a)
      simp only at h'
      have := hall a
      omega
    · exact absurd h (by simp)
  · intro h
    have hall : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hall]
    congr 1
    funext a
    refine Fin.ext ?_
    show (d.start j idx a + (d.window j a : ℤ)).toNat = (i a).val
    rw [h a]; exact Int.toNat_natCast _

section Rows
variable {N E C w : ℕ} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the `e`-th destination, read signed. -/
theorem rowScatter_start0 :
    (rowScatter N E C wf).start (ix2 e c') idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row-scatter's update `(e, c')` lands on `(n, c)` exactly when the `e`-th destination is `n` and `c' = c`. -/
theorem rowScatter_resultIdx?_iff (n : Fin N) (c : Fin C) :
    (rowScatter N E C wf).resultIdx? (ix2 e c') idx = some (ix2 n c)
      ↔ (idx (ix2 e (0 : Fin 1))).toInt = (n.val : ℤ) ∧ c' = c := by
  rw [resultIdx?_eq_some_iff]
  have hw0 : (rowScatter N E C wf).window (ix2 e c') (0 : Fin 2) = 0 := rfl
  have hs1 : (rowScatter N E C wf).start (ix2 e c') idx (1 : Fin 2) = 0 := rfl
  have hw1 : (rowScatter N E C wf).window (ix2 e c') (1 : Fin 2) = c'.val := rfl
  constructor
  · intro h
    have h0 := h (0 : Fin 2)
    have h1 := h (1 : Fin 2)
    rw [rowScatter_start0, hw0] at h0
    rw [hs1, hw1] at h1
    have h0' : (idx (ix2 e (0 : Fin 1))).toInt + ((0 : ℕ) : ℤ) = (n.val : ℤ) := h0
    have h1' : (0 : ℤ) + (c'.val : ℤ) = (c.val : ℤ) := h1
    exact ⟨by omega, Fin.ext (by omega)⟩
  · rintro ⟨hz, rfl⟩ a
    match a with
    | ⟨0, _⟩ =>
      show (rowScatter N E C wf).start (ix2 e c') idx (0 : Fin 2) + ((rowScatter N E C wf).window (ix2 e c') (0 : Fin 2) : ℤ) = (n.val : ℤ)
      rw [rowScatter_start0, hw0, hz]; simp
    | ⟨1, _⟩ =>
      show (rowScatter N E C wf).start (ix2 e c') idx (1 : Fin 2) + ((rowScatter N E C wf).window (ix2 e c') (1 : Fin 2) : ℤ) = (c'.val : ℤ)
      rw [hs1, hw1]; simp

end Rows

/-! ## The row scatter-add at an index -/

/-- THE ROW SCATTER-ADD READ AT `(n, c)`: the operand's entry plus the sum, over the updates `e` whose destination is
    `n`, of the update's entry `(e, c)`. -/
theorem scatterAdd_rows_apply {N E C w : ℕ} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatter N E C wf) x idx upd (ix2 n c)
      = x (ix2 n c) + ∑ e : Fin E, if (idx (ix2 e (0 : Fin 1))).toInt = (n.val : ℤ) then upd (ix2 e c) else 0 := by
  show Ideal.hostScatterAdd (rowScatter N E C wf) x idx upd (ix2 n c) = _
  unfold Ideal.hostScatterAdd
  congr 1
  rw [Finset.sum_filter, sum_idx2]
  refine Finset.sum_congr rfl fun e _ => ?_
  simp only [rowScatter_resultIdx?_iff]
  by_cases hz : (idx (ix2 e (0 : Fin 1))).toInt = (n.val : ℤ)
  · simp only [hz, true_and, if_true]
    rw [Finset.sum_ite_eq' Finset.univ c (fun c' => upd (ix2 e c'))]
    simp
  · simp only [hz, false_and, if_false]
    exact Finset.sum_const_zero

/-! ## The vector scatter-add at an index -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Vec
variable {N E w : ℕ} (wf : ScatterDims.WF ⟨1, ![N]⟩ ⟨2, ![E, 1]⟩ ⟨1, ![E]⟩ [] [0] [0] 1)
  (idx : IVec ⟨2, ![E, 1]⟩ w) (e : Fin E)

/-- On the operand's one axis the window starts at the `e`-th destination, read signed. -/
theorem vecScatter_start0 :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector scatter's update `e` lands on `n` exactly when the `e`-th destination is `n`. -/
theorem vecScatter_resultIdx?_iff (n : Fin N) :
    (vecScatter N E wf).resultIdx? (ix1 e) idx = some (ix1 n) ↔ (idx (ix2 e (0 : Fin 1))).toInt = (n.val : ℤ) := by
  rw [resultIdx?_eq_some_iff]
  have hw0 : (vecScatter N E wf).window (ix1 e) (0 : Fin 1) = 0 := rfl
  constructor
  · intro h
    have h0 := h (0 : Fin 1)
    rw [vecScatter_start0, hw0] at h0
    have h0' : (idx (ix2 e (0 : Fin 1))).toInt + ((0 : ℕ) : ℤ) = (n.val : ℤ) := h0
    omega
  · intro hz a
    match a with
    | ⟨0, _⟩ =>
      show (vecScatter N E wf).start (ix1 e) idx (0 : Fin 1) + ((vecScatter N E wf).window (ix1 e) (0 : Fin 1) : ℤ) = (n.val : ℤ)
      rw [vecScatter_start0, hw0, hz]; simp

end Vec

/-- THE VECTOR SCATTER-ADD READ AT `n`: the operand's entry plus the sum, over the updates `e` whose destination is `n`,
    of the update's entry `e`. -/
theorem scatterAdd_vec_apply {N E w : ℕ} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : ℤ) then upd (ix1 e) else 0 := by
  show Ideal.hostScatterAdd (vecScatter N E wf) x idx upd (ix1 n) = _
  unfold Ideal.hostScatterAdd
  congr 1
  rw [Finset.sum_filter, sum_idx1]
  refine Finset.sum_congr rfl fun e _ => ?_
  simp only [vecScatter_resultIdx?_iff]

end Cert.LibSegment

end
-- ==== Proof.RefScatter.lean ====
/-
  The reference program's segment sum, read at one position of one cloud's row.

  The scatter adds 1 at each point's destination into an array of zeros, so at position d it holds the number of
  points whose destination is d. A point's destination is position b * 512 + c exactly when the point is counted,
  belongs to cloud b and its three bin numbers are the base-8 digits of c; so the entry at (b, c) of the reshaped
  sums is the number of counted points of cloud b in the voxel of column c.
-/
import proofs.«143712_j28561532518446_2_alg».proof.Proof.RefBits
import proofs.«143712_j28561532518446_2_alg».proof.Proof.BinRange
import proofs.«143712_j28561532518446_2_alg».proof.Proof.LibSegment

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The scatter at a position -/

/-- The segment sum at position d: the number of points whose destination word, read signed, is d. -/
theorem v38_at (x0 : (⟨S1024x8192x3, .f32⟩ : BufTy).Contents (Elt Ideal)) (d : Fin 524288) :
    val_main_v38 (F := Ideal) x0 (ix1 d)
      = ∑ e : Fin 8388608,
          if (val_main_v37 (F := Ideal) x0 (ix2 e (0 : Fin 1))).toInt = (d.val : Int) then (1 : EReal) else 0 := by
  unfold val_main_v38
  have h34 : ∀ e : Fin 8388608, val_main_v34 (F := Ideal) (ix1 e) = 1 := fun e => by
    rw [val_main_v34_apply, val_main_v33_apply, val_main_cst_8_apply]
    exact Cert.Hist.ofBits_one
  have h36 : val_main_v36 (F := Ideal) (ix1 d) = 0 := by
    rw [val_main_v36_apply, val_main_cst_9_apply]
    exact Ideal.ofBits_zero_f32
  generalize val_main_v37 (F := Ideal) x0 = idx
  generalize val_main_v34 (F := Ideal) = upd at h34
  generalize val_main_v36 (F := Ideal) = opnd at h36
  refine (Cert.LibSegment.scatterAdd_vec_apply scatter_S524288_S8388608x1_S8388608_n_0_0_1_wf opnd idx upd d).trans ?_
  rw [h36, zero_add]
  refine Finset.sum_congr rfl fun e _ => ?_
  rw [h34]

/-! ## Which points land on position (b, c) -/

/-- Position c of cloud b's row, among all positions. -/
def pos (b : Fin 1024) (c : Fin 512) : Fin 524288 :=
  ⟨b.val * 512 + c.val, by have := b.isLt; have := c.isLt; omega⟩

theorem idx_pos (b : Fin 1024) (c : Fin 512) : idx_main_v39 (ix2 b c) = ix1 (pos b c) := by
  funext a
  match a with
  | ⟨0, _⟩ => rfl

/-- A point's destination is position (b, c) exactly when it is a point of cloud b counted in the voxel of c. -/
theorem destW_eq_pos_iff (x0 : (⟨S1024x8192x3, .f32⟩ : BufTy).Contents (Elt Ideal)) (b' b : Fin 1024) (n : Fin 8192)
    (c : Fin 512) :
    (destW x0 b' n).toInt = ((pos b c).val : Int)
      ↔ b' = b ∧ Cert.Hist.Hit (Cert.Hist.pt x0 b' n) (Cert.Hist.colV c) (Cert.Hist.colJ c) (Cert.Hist.colK c) := by
  have hc := c.isLt
  have hw : val_main_v13 (F := Ideal) x0 (ix2 b' n) = 1#1 →
      (Cert.Hist.binW (x0 (ix3 b' n 0))).toNat < 8 ∧ (Cert.Hist.binW (x0 (ix3 b' n 1))).toNat < 8
        ∧ (Cert.Hist.binW (x0 (ix3 b' n 2))).toNat < 8 := fun hv =>
    have hV := (v13_at x0 b' n).1 hv
    ⟨Cert.Hist.binW_toNat_lt (hV 0), Cert.Hist.binW_toNat_lt (hV 1), Cert.Hist.binW_toNat_lt (hV 2)⟩
  unfold destW
  show BitVec.toInt (Scalar.select _ _ (524288#32 : BitVec 32)) = ((b.val * 512 + c.val : Nat) : Int) ↔ _
  rw [select_seg_toInt_iff _ b' b c _ _ _ hw, v13_at]
  unfold Cert.Hist.Hit
  rw [word_eq_ofNat_iff _ (Cert.Hist.colV c).val (Cert.Hist.colV c).isLt,
    word_eq_ofNat_iff _ (Cert.Hist.colJ c).val (Cert.Hist.colJ c).isLt,
    word_eq_ofNat_iff _ (Cert.Hist.colK c).val (Cert.Hist.colK c).isLt]
  constructor
  · rintro ⟨hV, hb, e0, e1, e2⟩
    exact ⟨hb, hV, e0, e1, e2⟩
  · rintro ⟨hb, hV, e0, e1, e2⟩
    exact ⟨hV, hb, e0, e1, e2⟩

/-! ## The sum over all points, cloud by cloud -/

/-- Points are numbered cloud by cloud. -/
def pointEquiv : Fin 1024 × Fin 8192 ≃ Fin 8388608 where
  toFun p := flat p.1 p.2
  invFun e := (⟨e.val / 8192, by have := e.isLt; omega⟩, ⟨e.val % 8192, by omega⟩)
  left_inv p := by
    have h1 := p.1.isLt
    have h2 := p.2.isLt
    refine Prod.ext (Fin.ext ?_) (Fin.ext ?_)
    · show (p.1.val * 8192 + p.2.val) / 8192 = p.1.val; omega
    · show (p.1.val * 8192 + p.2.val) % 8192 = p.2.val; omega
  right_inv e := by
    refine Fin.ext ?_
    show e.val / 8192 * 8192 + e.val % 8192 = e.val
    omega

/-- THE COUNTS: the reshaped segment sums at (b, c) are the counts of the specification. -/
theorem v39_at (x0 : (⟨S1024x8192x3, .f32⟩ : BufTy).Contents (Elt Ideal)) (b : Fin 1024) (c : Fin 512) :
    val_main_v39 (F := Ideal) x0 (ix2 b c) = Cert.Hist.count x0 b c := by
  rw [val_main_v39_apply, idx_pos, v38_at, ← Equiv.sum_comp pointEquiv, Fintype.sum_prod_type]
  have hterm : ∀ (b' : Fin 1024) (n : Fin 8192),
      (if (val_main_v37 (F := Ideal) x0 (ix2 (pointEquiv (b', n)) (0 : Fin 1))).toInt = ((pos b c).val : Int)
        then (1 : EReal) else 0)
      = if b' = b then Cert.Hist.hit (Cert.Hist.pt x0 b' n) (Cert.Hist.colV c) (Cert.Hist.colJ c) (Cert.Hist.colK c) else 0 := by
    intro b' n
    show (if (val_main_v37 (F := Ideal) x0 (ix2 (flat b' n) (0 : Fin 1))).toInt = ((pos b c).val : Int)
        then (1 : EReal) else 0) = _
    rw [v37_at]
    unfold Cert.Hist.hit
    by_cases hb : b' = b
    · by_cases hH : Cert.Hist.Hit (Cert.Hist.pt x0 b' n) (Cert.Hist.colV c) (Cert.Hist.colJ c) (Cert.Hist.colK c)
      · rw [if_pos ((destW_eq_pos_iff x0 b' b n c).2 ⟨hb, hH⟩), if_pos hb, if_pos hH]
      · rw [if_neg (fun h => hH ((destW_eq_pos_iff x0 b' b n c).1 h).2), if_pos hb, if_neg hH]
    · rw [if_neg (fun h => hb ((destW_eq_pos_iff x0 b' b n c).1 h).1), if_neg hb]
  simp only [hterm]
  rw [Finset.sum_eq_single b]
  · unfold Cert.Hist.count
    refine Finset.sum_congr rfl fun n _ => ?_
    rw [if_pos rfl]
  · intro b' _ hne
    refine Finset.sum_eq_zero fun n _ => ?_
    rw [if_neg hne]
  · intro h
    exact absurd (Finset.mem_univ _) h

end Cert.ReferenceIdeal.Hand

end
-- ==== Proof.RefValue.lean ====
/-
  The reference program's result is the specification.

  The normalised counts: the reshaped segment sums divided by 8192, that is, multiplied by 1/8192. The final layer:
  the product of the normalised counts with the transposed weights, entry (b, q) being the sum over the 512 columns
  of the normalised count at (b, c) times the weight at (q, c), plus the bias of q.
-/
import proofs.«143712_j28561532518446_2_alg».proof.Proof.RefScatter

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The normalised counts at (b, c). -/
theorem v41_at (x0 : (⟨S1024x8192x3, .f32⟩ : BufTy).Contents (Elt Ideal)) (b : Fin 1024) (c : Fin 512) :
    val_main_v41 (F := Ideal) x0 (ix2 b c) = Cert.Hist.count x0 b c * Ideal.ofBits .f32 0x39000000#32 := by
  rw [val_main_v41_apply, v39_at, val_main_v40_apply, val_main_cst_10_apply]
  exact Cert.Hist.div_8192 _

theorem idx_lhs (b : Fin 1024) (q : Fin 40) (k : Fin 512) : lidx_main_v43 (ix2 b q) k = ix2 b k := by
  funext a
  match a with
  | ⟨0, _⟩ => rfl
  | ⟨1, _⟩ => rfl

theorem idx_rhs (b : Fin 1024) (q : Fin 40) (k : Fin 512) : idx_main_v42 (ridx_main_v43 (ix2 b q) k) = ix2 q k := by
  funext a
  match a with
  | ⟨0, _⟩ => rfl
  | ⟨1, _⟩ => rfl

theorem idx_bias (b : Fin 1024) (q : Fin 40) : idx_main_v44 (idx_main_v45 (ix2 b q)) = ix1 q := by
  funext a
  match a with
  | ⟨0, _⟩ => rfl

/-- THE REFERENCE IS THE SPECIFICATION. -/
theorem result_eq (x0 : (⟨S1024x8192x3, .f32⟩ : BufTy).Contents (Elt Ideal))
    (x1 : (⟨S40x512, .f32⟩ : BufTy).Contents (Elt Ideal)) (x2 : (⟨S40, .f32⟩ : BufTy).Contents (Elt Ideal)) :
    Cert.ReferenceIdeal.Read.val_main_v46 (F := Ideal) x0 x1 x2 = Cert.Hist.G x0 x1 x2 := by
  funext i
  obtain ⟨b, q, rfl⟩ : ∃ (b : Fin 1024) (q : Fin 40), i = ix2 b q := ⟨i 0, i 1, eq_ix2 i⟩
  rw [Cert.Hist.G_ix2, val_main_v46_apply, val_main_v43_apply, val_main_v45_apply, val_main_v44_apply, idx_bias]
  unfold Cert.Hist.resultAt
  show (∑ k : Fin 512, _) + x2 (ix1 q) = _
  congr 1
  refine Finset.sum_congr rfl fun k _ => ?_
  rw [idx_lhs, val_main_v42_apply, idx_rhs, v41_at]

end Cert.ReferenceIdeal.Hand

end
-- ==== Proof.lean ====
/-
  A voxel histogram with a linear classifier, computed two ways, gives one result on the extended reals.

  The arguments are 1024 clouds of 8192 points with three coordinates, a 40 x 512 weight matrix and a bias of 40. A point
  is counted when all its coordinates lie in [-2, 2]; its voxel is given by the three bin numbers floor ((t + 2) / (1/2)),
  at most 7. The result at cloud b and class q is the sum over the 512 voxels c of (count b c / 8192) * W q c, plus the
  bias of q (Proof/Hist.lean: G).

  The kernel walks a grid of 4 x 8 points; point (i, k) stages clouds 256 i .. 256 i + 255 and points 1024 k .. 1024 k + 1023.
  Each step adds to a 256 x 512 accumulator, kept between the eight steps of a run, the block's counts, computed as sums
  over the block's points of products of zero-one indicators (one-hot rows against one-hot rows: a matrix product); the
  last step of a run multiplies by 1/8192, applies the weights and the bias and writes 256 rows of the result
  (Proof/Step.lean, Pieces, TileValue, ClassifyValue, Fold.lean, Blocks.lean). The reference computes the counts by one
  sum over all 8 388 608 points of ones placed at a flat position cloud * 512 + voxel, a position outside the table for
  a point that is not counted; because the bin numbers of a counted point are 0 .. 7 the position determines cloud and
  voxel, and the sum over all points at one position is the count (Proof/BinRange.lean, SegArith, RefBits, RefScatter,
  RefValue). Dividing by 8192 is multiplying by 1/8192 on every extended real, 1/8192 being a power of two that the
  kernel's literal denotes exactly. No sum is ever redistributed over a product, so no finiteness of the inputs is used.

  Below: the three programs run to completion and leave their arguments unchanged; the idealized kernel is the kernel's
  text read on the extended reals (no rewrite was applied); and the two idealized programs, from memories that agree on the
  arguments, end with the same result array, G of the arguments.
-/
import proofs.«143712_j28561532518446_2_alg».proof.Defs
import proofs.«143712_j28561532518446_2_alg».proof.Proof.Gen.Kernel
import proofs.«143712_j28561532518446_2_alg».proof.Proof.Gen.Kernel.Skeleton
import proofs.«143712_j28561532518446_2_alg».proof.Proof.Gen.Kernel.Loops
import proofs.«143712_j28561532518446_2_alg».proof.Proof.Gen.Kernel.Launch
import proofs.«143712_j28561532518446_2_alg».proof.Proof.Gen.Kernel.Points
import proofs.«143712_j28561532518446_2_alg».proof.Proof.Gen.Kernel.Frame
import proofs.«143712_j28561532518446_2_alg».proof.Proof.Gen.KernelIdeal
import proofs.«143712_j28561532518446_2_alg».proof.Proof.Gen.KernelIdeal.Skeleton
import proofs.«143712_j28561532518446_2_alg».proof.Proof.Gen.KernelIdeal.Loops
import proofs.«143712_j28561532518446_2_alg».proof.Proof.Gen.KernelIdeal.Launch
import proofs.«143712_j28561532518446_2_alg».proof.Proof.Gen.KernelIdeal.Points
import proofs.«143712_j28561532518446_2_alg».proof.Proof.Gen.KernelIdeal.Frame
import proofs.«143712_j28561532518446_2_alg».proof.Proof.Gen.ReferenceIdeal
import proofs.«143712_j28561532518446_2_alg».proof.Proof.Gen.Pre_finite_inputs
import proofs.«143712_j28561532518446_2_alg».proof.Proof.Blocks
import proofs.«143712_j28561532518446_2_alg».proof.Proof.RefValue
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the arguments, the kernel's result array is G of its arguments (Proof/Blocks.lean) and the
    reference's is G of its own (Proof/RefValue.lean), which are the same arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v46_eq, Cert.ReferenceIdeal.Hand.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
